-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v71)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v71) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v74) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x1600000 : Shape := ⟨2, ![2, 1600000]⟩
abbrev S128x128 : Shape := ⟨2, ![128, 128]⟩
abbrev S128 : Shape := ⟨1, ![128]⟩
abbrev S128x16 : Shape := ⟨2, ![128, 16]⟩
abbrev S16 : Shape := ⟨1, ![16]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x16 : S_.BroadcastsInDim S128x16 (![] : Fin 0 → Fin S128x16.rank)
  reducesTo_S128x16_S_d0_1 : S128x16.ReducesTo [0, 1] S_
  bcast_S_S16 : S_.BroadcastsInDim S16 (![] : Fin 0 → Fin S16.rank)
  reducesTo_S16_S_d0 : S16.ReducesTo [0] S_

variable [Facts]

def fn_part1 {F : FTy → Type} [FloatOps F] (main_arg5 : FVec F S128 .f32) (main_arg6 : FVec F S128x16 .f32) (main_arg7 : FVec F S16 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x16 .f32 := Host.absf main_arg6
  let main_cst_8 : FVec F S_ .f32 := constant S_ .f32 0x7F800000#32
  let main_v25 : FVec F S128x16 .f32 := broadcastInDim S128x16 ![] bcast_S_S128x16 main_cst_8
  let main_v26 : IVec S128x16 1 := cmpf .olt main_v24 main_v25
  let main_c_9 : IVec S_ 1 := constantI S_ 1 1#1
  let main_v27 : IVec S_ 1 := (fun x v => Host.reduce IntOp.andi x v reducesTo_S128x16_S_d0_1 h_S_) main_v26 main_c_9
  let main_v28 : IVec S_ 1 := andi main_v23 main_v27
  let main_v29 : FVec F S16 .f32 := Host.absf main_arg7
  let main_cst_10 : FVec F S_ .f32 := constant S_ .f32 0x7F800000#32
  let main_v30 : FVec F S16 .f32 := broadcastInDim S16 ![] bcast_S_S16 main_cst_10
  let main_v31 : IVec S16 1 := cmpf .olt main_v29 main_v30
  let main_c_11 : IVec S_ 1 := constantI S_ 1 1#1
  let main_v32 : IVec S_ 1 := (fun x v => Host.reduce IntOp.andi x v reducesTo_S16_S_d0 h_S_) main_v31 main_c_11
  let main_v33 : IVec S_ 1 := andi main_v28 main_v32
  main_v33

def fn {F : FTy → Type} [FloatOps F] (main_arg0 : FVec F S50000x128 .f32) (main_arg1 : IVec S2x1600000 32) (main_arg2 : FVec F S128x128 .f32) (main_arg3 : FVec F S128 .f32) (main_arg4 : FVec F S128x128 .f32) (main_arg5 : FVec F S128 .f32) (main_arg6 : FVec F S128x16 .f32) (main_arg7 : FVec F S16 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_v13 main_v16
-- ==== Kernel.lean ====
abbrev S50000x128 : Shape := ⟨2, ![50000, 128]⟩
abbrev S2x1600000 : Shape := ⟨2, ![2, 1600000]⟩
abbrev S128x128 : Shape := ⟨2, ![128, 128]⟩
abbrev S128 : Shape := ⟨1, ![128]⟩
abbrev S128x16 : Shape := ⟨2, ![128, 16]⟩
abbrev S16 : Shape := ⟨1, ![16]⟩
abbrev S50000 : Shape := ⟨1, ![50000]⟩
abbrev S1x1600000 : Shape := ⟨2, ![1, 1600000]⟩
abbrev S1600000 : Shape := ⟨1, ![1600000]⟩
abbrev S1650000 : Shape := ⟨1, ![1650000]⟩
abbrev S_ : Shape := ⟨0, ![]⟩
abbrev S1650000x1 : Shape := ⟨2, ![1650000, 1]⟩
abbrev S5000x128 : Shape := ⟨2, ![5000, 128]⟩
abbrev S1650000x128 : Shape := ⟨2, ![1650000, 128]⟩
abbrev S1x128 : Shape := ⟨2, ![1, 128]⟩
abbrev S50000x16 : Shape := ⟨2, ![50000, 16]⟩
abbrev S5000x16 : Shape := ⟨2, ![5000, 16]⟩
abbrev S1x16 : Shape := ⟨2, ![1, 16]⟩

abbrev nBuf : Space → Nat
  | .hbm => 102
  | .vmem => 16
  | .smem => 0
  | _ => 0

abbrev bufTy : (tb : Table) → Fin (tcTables nBuf tb) → BufTy
  | .hbm, ⟨0, _⟩ => ⟨S50000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x16, .f32⟩
  | .hbm, ⟨7, _⟩ => ⟨S16, .f32⟩
  | .hbm, ⟨8, _⟩ => ⟨S50000, .i32⟩
  | .hbm, ⟨9, _⟩ => ⟨S1x1600000, .i32⟩
  | .hbm, ⟨10, _⟩ => ⟨S1600000, .i32⟩
  | .hbm, ⟨11, _⟩ => ⟨S1650000, .i32⟩
  | .hbm, ⟨12, _⟩ => ⟨S1x1600000, .i32⟩
  | .hbm, ⟨13, _⟩ => ⟨S1600000, .i32⟩
  | .hbm, ⟨14, _⟩ => ⟨S1650000, .i32⟩
  | .hbm, ⟨15, _⟩ => ⟨S_, .f32⟩
  | .hbm, ⟨16, _⟩ => ⟨S50000, .f32⟩
  | .hbm, ⟨17, _⟩ => ⟨S_, .i32⟩
  | .hbm, ⟨18, _⟩ => ⟨S1650000, .i32⟩
  | .hbm, ⟨19, _⟩ => ⟨S1650000, .i1⟩
  | .hbm, ⟨20, _⟩ => ⟨S_, .i32⟩
  | .hbm, ⟨21, _⟩ => ⟨S1650000, .i32⟩
  | .hbm, ⟨22, _⟩ => ⟨S1650000, .i32⟩
  | .hbm, ⟨23, _⟩ => ⟨S1650000, .i32⟩
  | .hbm, ⟨24, _⟩ => ⟨S1650000x1, .i32⟩
  | .hbm, ⟨25, _⟩ => ⟨S_, .f32⟩
  | .hbm, ⟨26, _⟩ => ⟨S1650000, .f32⟩
  | .hbm, ⟨27, _⟩ => ⟨S50000, .f32⟩
  | .hbm, ⟨28, _⟩ => ⟨S_, .f32⟩
  | .hbm, ⟨29, _⟩ => ⟨S50000, .f32⟩
  | .hbm, ⟨30, _⟩ => ⟨S50000, .i1⟩
  | .hbm, ⟨31, _⟩ => ⟨S50000, .f32⟩
  | .hbm, ⟨32, _⟩ => ⟨S_, .f32⟩
  | .hbm, ⟨33, _⟩ => ⟨S_, .f32⟩
  | .hbm, ⟨34, _⟩ => ⟨S50000, .f32⟩
  | .hbm, ⟨35, _⟩ => ⟨S50000, .f32⟩
  | .hbm, ⟨36, _⟩ => ⟨S_, .i32⟩
  | .hbm, ⟨37, _⟩ => ⟨S1650000, .i32⟩
  | .hbm, ⟨38, _⟩ => ⟨S1650000, .i1⟩
  | .hbm, ⟨39, _⟩ => ⟨S_, .i32⟩
  | .hbm, ⟨40, _⟩ => ⟨S1650000, .i32⟩
  | .hbm, ⟨41, _⟩ => ⟨S1650000, .i32⟩
  | .hbm, ⟨42, _⟩ => ⟨S1650000, .i32⟩
  | .hbm, ⟨43, _⟩ => ⟨S1650000x1, .i32⟩
  | .hbm, ⟨44, _⟩ => ⟨S1650000, .f32⟩
  | .hbm, ⟨45, _⟩ => ⟨S_, .i32⟩
  | .hbm, ⟨46, _⟩ => ⟨S1650000, .i32⟩
  | .hbm, ⟨47, _⟩ => ⟨S1650000, .i1⟩
  | .hbm, ⟨48, _⟩ => ⟨S_, .i32⟩
  | .hbm, ⟨49, _⟩ => ⟨S1650000, .i32⟩
  | .hbm, ⟨50, _⟩ => ⟨S1650000, .i32⟩
  | .hbm, ⟨51, _⟩ => ⟨S1650000, .i32⟩
  | .hbm, ⟨52, _⟩ => ⟨S1650000x1, .i32⟩
  | .hbm, ⟨53, _⟩ => ⟨S1650000, .f32⟩
  | .hbm, ⟨54, _⟩ => ⟨S1650000, .f32⟩
  | .hbm, ⟨55, _⟩ => ⟨S50000x128, .f32⟩
  | .hbm, ⟨56, _⟩ => ⟨S_, .i32⟩
  | .hbm, ⟨57, _⟩ => ⟨S1650000, .i32⟩
  | .hbm, ⟨58, _⟩ => ⟨S1650000, .i1⟩
  | .hbm, ⟨59, _⟩ => ⟨S_, .i32⟩
  | .hbm, ⟨60, _⟩ => ⟨S1650000, .i32⟩
  | .hbm, ⟨61, _⟩ => ⟨S1650000, .i32⟩
  | .hbm, ⟨62, _⟩ => ⟨S1650000, .i32⟩
  | .hbm, ⟨63, _⟩ => ⟨S1650000x1, .i32⟩
  | .hbm, ⟨64, _⟩ => ⟨S1650000x128, .f32⟩
  | .hbm, ⟨65, _⟩ => ⟨S1650000x1, .f32⟩
  | .hbm, ⟨66, _⟩ => ⟨S1650000x128, .f32⟩
  | .hbm, ⟨67, _⟩ => ⟨S1650000x128, .f32⟩
  | .hbm, ⟨68, _⟩ => ⟨S_, .f32⟩
  | .hbm, ⟨69, _⟩ => ⟨S50000x128, .f32⟩
  | .hbm, ⟨70, _⟩ => ⟨S1650000x1, .i32⟩
  | .hbm, ⟨71, _⟩ => ⟨S50000x128, .f32⟩
  | .hbm, ⟨72, _⟩ => ⟨S1x128, .f32⟩
  | .hbm, ⟨73, _⟩ => ⟨S50000x128, .f32⟩
  | .hbm, ⟨74, _⟩ => ⟨S50000x128, .f32⟩
  | .hbm, ⟨75, _⟩ => ⟨S_, .f32⟩
  | .hbm, ⟨76, _⟩ => ⟨S50000x128, .f32⟩
  | .hbm, ⟨77, _⟩ => ⟨S50000x128, .f32⟩
  | .hbm, ⟨78, _⟩ => ⟨S50000x128, .f32⟩
  | .hbm, ⟨79, _⟩ => ⟨S_, .i32⟩
  | .hbm, ⟨80, _⟩ => ⟨S1650000, .i32⟩
  | .hbm, ⟨81, _⟩ => ⟨S1650000, .i1⟩
  | .hbm, ⟨82, _⟩ => ⟨S_, .i32⟩
  | .hbm, ⟨83, _⟩ => ⟨S1650000, .i32⟩
  | .hbm, ⟨84, _⟩ => ⟨S1650000, .i32⟩
  | .hbm, ⟨85, _⟩ => ⟨S1650000, .i32⟩
  | .hbm, ⟨86, _⟩ => ⟨S1650000x1, .i32⟩
  | .hbm, ⟨87, _⟩ => ⟨S1650000x128, .f32⟩
  | .hbm, ⟨88, _⟩ => ⟨S1650000x1, .f32⟩
  | .hbm, ⟨89, _⟩ => ⟨S1650000x128, .f32⟩
  | .hbm, ⟨90, _⟩ => ⟨S1650000x128, .f32⟩
  | .hbm, ⟨91, _⟩ => ⟨S_, .f32⟩
  | .hbm, ⟨92, _⟩ => ⟨S50000x128, .f32⟩
  | .hbm, ⟨93, _⟩ => ⟨S1650000x1, .i32⟩
  | .hbm, ⟨94, _⟩ => ⟨S50000x128, .f32⟩
  | .hbm, ⟨95, _⟩ => ⟨S1x128, .f32⟩
  | .hbm, ⟨96, _⟩ => ⟨S50000x128, .f32⟩
  | .hbm, ⟨97, _⟩ => ⟨S50000x128, .f32⟩
  | .hbm, ⟨98, _⟩ => ⟨S_, .f32⟩
  | .hbm, ⟨99, _⟩ => ⟨S50000x128, .f32⟩
  | .hbm, ⟨100, _⟩ => ⟨S50000x128, .f32⟩
  | .hbm, ⟨101, _⟩ => ⟨S50000x16, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S128x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S128x16, .f32⟩
  | .local _ .vmem, ⟨13, _⟩ => ⟨S16, .f32⟩
  | .local _ .vmem, ⟨14, _⟩ => ⟨S5000x16, .f32⟩
  | .local _ .vmem, ⟨15, _⟩ => ⟨S5000x16, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_c : Ref sig .tc := ⟨.hbm, 17, rfl⟩
abbrev main_v8 : Ref sig .tc := ⟨.hbm, 18, rfl⟩
abbrev main_v9 : Ref sig .tc := ⟨.hbm, 19, rfl⟩
abbrev main_c_0 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_v15 : Ref sig .tc := ⟨.hbm, 27, rfl⟩
abbrev main_cst_2 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_3 : Ref sig .tc := ⟨.hbm, 32, rfl⟩
abbrev main_call0_v0 : Ref sig .tc := ⟨.hbm, 33, rfl⟩
abbrev main_call0_v1 : Ref sig .tc := ⟨.hbm, 34, rfl⟩
abbrev main_v19 : Ref sig .tc := ⟨.hbm, 35, rfl⟩
abbrev main_c_4 : Ref sig .tc := ⟨.hbm, 36, rfl⟩
abbrev main_v20 : Ref sig .tc := ⟨.hbm, 37, rfl⟩
abbrev main_v21 : Ref sig .tc := ⟨.hbm, 38, rfl⟩
abbrev main_c_5 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_c_6 : Ref sig .tc := ⟨.hbm, 45, rfl⟩
abbrev main_v27 : Ref sig .tc := ⟨.hbm, 46, rfl⟩
abbrev main_v28 : Ref sig .tc := ⟨.hbm, 47, rfl⟩
abbrev main_c_7 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_c_8 : Ref sig .tc := ⟨.hbm, 56, rfl⟩
abbrev main_v36 : Ref sig .tc := ⟨.hbm, 57, rfl⟩
abbrev main_v37 : Ref sig .tc := ⟨.hbm, 58, rfl⟩
abbrev main_c_9 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_cst_10 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_call1_cst : Ref sig .tc := ⟨.hbm, 75, rfl⟩
abbrev main_call1_v0 : Ref sig .tc := ⟨.hbm, 76, rfl⟩
abbrev main_v52 : Ref sig .tc := ⟨.hbm, 77, rfl⟩
abbrev main_v53 : Ref sig .tc := ⟨.hbm, 78, rfl⟩
abbrev main_c_11 : Ref sig .tc := ⟨.hbm, 79, rfl⟩
abbrev main_v54 : Ref sig .tc := ⟨.hbm, 80, rfl⟩
abbrev main_v55 : Ref sig .tc := ⟨.hbm, 81, rfl⟩
abbrev main_c_12 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_cst_13 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_call2_cst : Ref sig .tc := ⟨.hbm, 98, rfl⟩
abbrev main_call2_v0 : Ref sig .tc := ⟨.hbm, 99, rfl⟩
abbrev main_v70 : Ref sig .tc := ⟨.hbm, 100, rfl⟩
abbrev main_v71 : Ref sig .tc := ⟨.hbm, 101, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg3_0 : Ref sig .tc := ⟨.vmem, 14, rfl⟩
abbrev cc2_stg3_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem3_0 : DmaSem sig := 14
abbrev cc2_sem3_1 : DmaSem sig := 15

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x16 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S16 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x16 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S50000_S1650000_d0 : Shape.Concatenates [S1600000, S50000] S1650000 0
  slices_S2x1600000_S1x1600000_1_0 : S2x1600000.Slices ![1, 0] S1x1600000
  bcast_S_S50000 : S_.BroadcastsInDim S50000 (![] : Fin 0 → Fin S50000.rank)
  bcast_S_S1650000 : S_.BroadcastsInDim S1650000 (![] : Fin 0 → Fin S1650000.rank)
  bcast_S1650000_S1650000x1_0 : S1650000.BroadcastsInDim S1650000x1 (![0] : Fin 1 → Fin S1650000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S1650000x1_S1650000x128_0_1 : S1650000x1.BroadcastsInDim S1650000x128 (![0, 1] : Fin 2 → Fin S1650000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  shapeCasts_S5000x128_S5000x128 : S5000x128.ShapeCasts S5000x128
  inb_S128x16_S128x16_0_0 : ∀ a, (![0, 0] : Fin 2 → Nat) a + S128x16.size a ≤ S128x16.size a
  h_S128x16 : 0 < S128x16.numel
  inb_S16_S16_0 : ∀ a, (![0] : Fin 1 → Nat) a + S16.size a ≤ S16.size a
  h_S16 : 0 < S16.numel
  shapeCasts_S16_S1x16 : S16.ShapeCasts S1x16
  broadcasts_S1x16_S5000x16 : S1x16.Broadcasts S5000x16
  inb_S5000x16_S5000x16_0_0 : ∀ a, (![0, 0] : Fin 2 → Nat) a + S5000x16.size a ≤ S5000x16.size a
  h_S5000x16 : 0 < S5000x16.numel
  scatter_S50000_S1650000x1_S1650000_n_0_0_1_wf : ScatterDims.WF S50000 S1650000x1 S1650000 [] [0] [0] 1
  gather_S50000_S1650000x1_S1650000_n_0_n_n_0_1_1_wf : GatherDims.WF S50000 S1650000x1 S1650000 [] [0] [] [0] [] 1 ![1]
  dot_S5000x128_S128x128_S5000x128_1_0_0_1_n_n_wf : DotDims.WF S5000x128 S128x128 S5000x128 [1] [0] [0] [1] [] []
  gather_S50000x128_S1650000x1_S1650000x128_1_0_n_n_0_1_1128_wf : GatherDims.WF S50000x128 S1650000x1 S1650000x128 [1] [0] [] [0] [] 1 ![1, 128]
  scatter_S50000x128_S1650000x1_S1650000x128_1_0_0_1_wf : ScatterDims.WF S50000x128 S1650000x1 S1650000x128 [1] [0] [0] 1
  dot_S5000x128_S128x16_S5000x16_1_0_0_1_n_n_wf : DotDims.WF S5000x128 S128x16 S5000x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S50000x128.size a
  hwx1_2 : ∀ i : grid1.Coords, EltTy.bits .f32 = 32 ∨ (Rect.block (s := S50000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x16.size a ≤ S128x16.size a
  hwx2_1 : ∀ i : grid2.Coords, EltTy.bits .f32 = 32 ∨ (Rect.block (s := S128x16) S128x16.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S16.size a ≤ S16.size a
  hwx2_2 : ∀ i : grid2.Coords, EltTy.bits .f32 = 32 ∨ (Rect.block (s := S16) S16.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x16.size a ≤ S50000x16.size a
  hwx2_3 : ∀ i : grid2.Coords, EltTy.bits .f32 = 32 ∨ (Rect.block (s := S50000x16) S5000x16.size (cc2_transform_3 i) (hinb2_3 i)).WholeWords (EltTy.packing .f32)

variable [Facts₀]

def scatter_S50000_S1650000x1_S1650000_n_0_0_1 : ScatterDims S50000 S1650000x1 S1650000 where
  updateWindowDims := []
  insertedWindowDims := [0]
  scatterDimsToOperandDims := [0]
  indexVectorDim := 1
  wf := scatter_S50000_S1650000x1_S1650000_n_0_0_1_wf
def gather_S50000_S1650000x1_S1650000_n_0_n_n_0_1_1 : GatherDims S50000 S1650000x1 S1650000 where
  offsetDims := []
  collapsedSliceDims := [0]
  operandBatchingDims := []
  startIndicesBatchingDims := []
  startIndexMap := [0]
  indexVectorDim := 1
  sliceSizes := ![1]
  wf := gather_S50000_S1650000x1_S1650000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S1650000x1_S1650000x128_1_0_n_n_0_1_1128 : GatherDims S50000x128 S1650000x1 S1650000x128 where
  offsetDims := [1]
  collapsedSliceDims := [0]
  operandBatchingDims := []
  startIndicesBatchingDims := []
  startIndexMap := [0]
  indexVectorDim := 1
  sliceSizes := ![1, 128]
  wf := gather_S50000x128_S1650000x1_S1650000x128_1_0_n_n_0_1_1128_wf
def scatter_S50000x128_S1650000x1_S1650000x128_1_0_0_1 : ScatterDims S50000x128 S1650000x1 S1650000x128 where
  updateWindowDims := [1]
  insertedWindowDims := [0]
  scatterDimsToOperandDims := [0]
  indexVectorDim := 1
  wf := scatter_S50000x128_S1650000x1_S1650000x128_1_0_0_1_wf
def dot_S5000x128_S128x16_S5000x16_1_0_0_1_n_n : DotDims S5000x128 S128x16 S5000x16 where
  lhsContracting := [1]
  rhsContracting := [0]
  lhsNonContracting := [0]
  rhsNonContracting := [1]
  lhsBatch := []
  rhsBatch := []
  wf := dot_S5000x128_S128x16_S5000x16_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v35) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v52) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v53) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v70) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg6) S128x16.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg7) S16.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v71) S5000x16.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S50000x128 : Shape := ⟨2, ![50000, 128]⟩
abbrev S2x1600000 : Shape := ⟨2, ![2, 1600000]⟩
abbrev S128x128 : Shape := ⟨2, ![128, 128]⟩
abbrev S128 : Shape := ⟨1, ![128]⟩
abbrev S128x16 : Shape := ⟨2, ![128, 16]⟩
abbrev S16 : Shape := ⟨1, ![16]⟩
abbrev S50000 : Shape := ⟨1, ![50000]⟩
abbrev S1x1600000 : Shape := ⟨2, ![1, 1600000]⟩
abbrev S1600000 : Shape := ⟨1, ![1600000]⟩
abbrev S1650000 : Shape := ⟨1, ![1650000]⟩
abbrev S_ : Shape := ⟨0, ![]⟩
abbrev S1650000x1 : Shape := ⟨2, ![1650000, 1]⟩
abbrev S1650000x128 : Shape := ⟨2, ![1650000, 128]⟩
abbrev S1x128 : Shape := ⟨2, ![1, 128]⟩
abbrev S50000x16 : Shape := ⟨2, ![50000, 16]⟩
abbrev S1x16 : Shape := ⟨2, ![1, 16]⟩

abbrev nBuf : Space → Nat
  | .hbm => 105
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x16, .f32⟩
  | .hbm, ⟨7, _⟩ => ⟨S16, .f32⟩
  | .hbm, ⟨8, _⟩ => ⟨S50000, .i32⟩
  | .hbm, ⟨9, _⟩ => ⟨S1x1600000, .i32⟩
  | .hbm, ⟨10, _⟩ => ⟨S1600000, .i32⟩
  | .hbm, ⟨11, _⟩ => ⟨S1650000, .i32⟩
  | .hbm, ⟨12, _⟩ => ⟨S1x1600000, .i32⟩
  | .hbm, ⟨13, _⟩ => ⟨S1600000, .i32⟩
  | .hbm, ⟨14, _⟩ => ⟨S1650000, .i32⟩
  | .hbm, ⟨15, _⟩ => ⟨S_, .f32⟩
  | .hbm, ⟨16, _⟩ => ⟨S50000, .f32⟩
  | .hbm, ⟨17, _⟩ => ⟨S_, .i32⟩
  | .hbm, ⟨18, _⟩ => ⟨S1650000, .i32⟩
  | .hbm, ⟨19, _⟩ => ⟨S1650000, .i1⟩
  | .hbm, ⟨20, _⟩ => ⟨S_, .i32⟩
  | .hbm, ⟨21, _⟩ => ⟨S1650000, .i32⟩
  | .hbm, ⟨22, _⟩ => ⟨S1650000, .i32⟩
  | .hbm, ⟨23, _⟩ => ⟨S1650000, .i32⟩
  | .hbm, ⟨24, _⟩ => ⟨S1650000x1, .i32⟩
  | .hbm, ⟨25, _⟩ => ⟨S_, .f32⟩
  | .hbm, ⟨26, _⟩ => ⟨S1650000, .f32⟩
  | .hbm, ⟨27, _⟩ => ⟨S50000, .f32⟩
  | .hbm, ⟨28, _⟩ => ⟨S_, .f32⟩
  | .hbm, ⟨29, _⟩ => ⟨S50000, .f32⟩
  | .hbm, ⟨30, _⟩ => ⟨S50000, .i1⟩
  | .hbm, ⟨31, _⟩ => ⟨S50000, .f32⟩
  | .hbm, ⟨32, _⟩ => ⟨S_, .f32⟩
  | .hbm, ⟨33, _⟩ => ⟨S_, .f32⟩
  | .hbm, ⟨34, _⟩ => ⟨S50000, .f32⟩
  | .hbm, ⟨35, _⟩ => ⟨S50000, .f32⟩
  | .hbm, ⟨36, _⟩ => ⟨S_, .i32⟩
  | .hbm, ⟨37, _⟩ => ⟨S1650000, .i32⟩
  | .hbm, ⟨38, _⟩ => ⟨S1650000, .i1⟩
  | .hbm, ⟨39, _⟩ => ⟨S_, .i32⟩
  | .hbm, ⟨40, _⟩ => ⟨S1650000, .i32⟩
  | .hbm, ⟨41, _⟩ => ⟨S1650000, .i32⟩
  | .hbm, ⟨42, _⟩ => ⟨S1650000, .i32⟩
  | .hbm, ⟨43, _⟩ => ⟨S1650000x1, .i32⟩
  | .hbm, ⟨44, _⟩ => ⟨S1650000, .f32⟩
  | .hbm, ⟨45, _⟩ => ⟨S_, .i32⟩
  | .hbm, ⟨46, _⟩ => ⟨S1650000, .i32⟩
  | .hbm, ⟨47, _⟩ => ⟨S1650000, .i1⟩
  | .hbm, ⟨48, _⟩ => ⟨S_, .i32⟩
  | .hbm, ⟨49, _⟩ => ⟨S1650000, .i32⟩
  | .hbm, ⟨50, _⟩ => ⟨S1650000, .i32⟩
  | .hbm, ⟨51, _⟩ => ⟨S1650000, .i32⟩
  | .hbm, ⟨52, _⟩ => ⟨S1650000x1, .i32⟩
  | .hbm, ⟨53, _⟩ => ⟨S1650000, .f32⟩
  | .hbm, ⟨54, _⟩ => ⟨S1650000, .f32⟩
  | .hbm, ⟨55, _⟩ => ⟨S50000x128, .f32⟩
  | .hbm, ⟨56, _⟩ => ⟨S_, .i32⟩
  | .hbm, ⟨57, _⟩ => ⟨S1650000, .i32⟩
  | .hbm, ⟨58, _⟩ => ⟨S1650000, .i1⟩
  | .hbm, ⟨59, _⟩ => ⟨S_, .i32⟩
  | .hbm, ⟨60, _⟩ => ⟨S1650000, .i32⟩
  | .hbm, ⟨61, _⟩ => ⟨S1650000, .i32⟩
  | .hbm, ⟨62, _⟩ => ⟨S1650000, .i32⟩
  | .hbm, ⟨63, _⟩ => ⟨S1650000x1, .i32⟩
  | .hbm, ⟨64, _⟩ => ⟨S1650000x128, .f32⟩
  | .hbm, ⟨65, _⟩ => ⟨S1650000x1, .f32⟩
  | .hbm, ⟨66, _⟩ => ⟨S1650000x128, .f32⟩
  | .hbm, ⟨67, _⟩ => ⟨S1650000x128, .f32⟩
  | .hbm, ⟨68, _⟩ => ⟨S_, .f32⟩
  | .hbm, ⟨69, _⟩ => ⟨S50000x128, .f32⟩
  | .hbm, ⟨70, _⟩ => ⟨S1650000x1, .i32⟩
  | .hbm, ⟨71, _⟩ => ⟨S50000x128, .f32⟩
  | .hbm, ⟨72, _⟩ => ⟨S1x128, .f32⟩
  | .hbm, ⟨73, _⟩ => ⟨S50000x128, .f32⟩
  | .hbm, ⟨74, _⟩ => ⟨S50000x128, .f32⟩
  | .hbm, ⟨75, _⟩ => ⟨S_, .f32⟩
  | .hbm, ⟨76, _⟩ => ⟨S50000x128, .f32⟩
  | .hbm, ⟨77, _⟩ => ⟨S50000x128, .f32⟩
  | .hbm, ⟨78, _⟩ => ⟨S50000x128, .f32⟩
  | .hbm, ⟨79, _⟩ => ⟨S_, .i32⟩
  | .hbm, ⟨80, _⟩ => ⟨S1650000, .i32⟩
  | .hbm, ⟨81, _⟩ => ⟨S1650000, .i1⟩
  | .hbm, ⟨82, _⟩ => ⟨S_, .i32⟩
  | .hbm, ⟨83, _⟩ => ⟨S1650000, .i32⟩
  | .hbm, ⟨84, _⟩ => ⟨S1650000, .i32⟩
  | .hbm, ⟨85, _⟩ => ⟨S1650000, .i32⟩
  | .hbm, ⟨86, _⟩ => ⟨S1650000x1, .i32⟩
  | .hbm, ⟨87, _⟩ => ⟨S1650000x128, .f32⟩
  | .hbm, ⟨88, _⟩ => ⟨S1650000x1, .f32⟩
  | .hbm, ⟨89, _⟩ => ⟨S1650000x128, .f32⟩
  | .hbm, ⟨90, _⟩ => ⟨S1650000x128, .f32⟩
  | .hbm, ⟨91, _⟩ => ⟨S_, .f32⟩
  | .hbm, ⟨92, _⟩ => ⟨S50000x128, .f32⟩
  | .hbm, ⟨93, _⟩ => ⟨S1650000x1, .i32⟩
  | .hbm, ⟨94, _⟩ => ⟨S50000x128, .f32⟩
  | .hbm, ⟨95, _⟩ => ⟨S1x128, .f32⟩
  | .hbm, ⟨96, _⟩ => ⟨S50000x128, .f32⟩
  | .hbm, ⟨97, _⟩ => ⟨S50000x128, .f32⟩
  | .hbm, ⟨98, _⟩ => ⟨S_, .f32⟩
  | .hbm, ⟨99, _⟩ => ⟨S50000x128, .f32⟩
  | .hbm, ⟨100, _⟩ => ⟨S50000x128, .f32⟩
  | .hbm, ⟨101, _⟩ => ⟨S50000x16, .f32⟩
  | .hbm, ⟨102, _⟩ => ⟨S1x16, .f32⟩
  | .hbm, ⟨103, _⟩ => ⟨S50000x16, .f32⟩
  | .hbm, ⟨104, _⟩ => ⟨S50000x16, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_c : Ref sig .tc := ⟨.hbm, 17, rfl⟩
abbrev main_v8 : Ref sig .tc := ⟨.hbm, 18, rfl⟩
abbrev main_v9 : Ref sig .tc := ⟨.hbm, 19, rfl⟩
abbrev main_c_0 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_v15 : Ref sig .tc := ⟨.hbm, 27, rfl⟩
abbrev main_cst_2 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_3 : Ref sig .tc := ⟨.hbm, 32, rfl⟩
abbrev main_call0_v0 : Ref sig .tc := ⟨.hbm, 33, rfl⟩
abbrev main_call0_v1 : Ref sig .tc := ⟨.hbm, 34, rfl⟩
abbrev main_v19 : Ref sig .tc := ⟨.hbm, 35, rfl⟩
abbrev main_c_4 : Ref sig .tc := ⟨.hbm, 36, rfl⟩
abbrev main_v20 : Ref sig .tc := ⟨.hbm, 37, rfl⟩
abbrev main_v21 : Ref sig .tc := ⟨.hbm, 38, rfl⟩
abbrev main_c_5 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_c_6 : Ref sig .tc := ⟨.hbm, 45, rfl⟩
abbrev main_v27 : Ref sig .tc := ⟨.hbm, 46, rfl⟩
abbrev main_v28 : Ref sig .tc := ⟨.hbm, 47, rfl⟩
abbrev main_c_7 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_c_8 : Ref sig .tc := ⟨.hbm, 56, rfl⟩
abbrev main_v36 : Ref sig .tc := ⟨.hbm, 57, rfl⟩
abbrev main_v37 : Ref sig .tc := ⟨.hbm, 58, rfl⟩
abbrev main_c_9 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_cst_10 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_call1_cst : Ref sig .tc := ⟨.hbm, 75, rfl⟩
abbrev main_call1_v0 : Ref sig .tc := ⟨.hbm, 76, rfl⟩
abbrev main_v52 : Ref sig .tc := ⟨.hbm, 77, rfl⟩
abbrev main_v53 : Ref sig .tc := ⟨.hbm, 78, rfl⟩
abbrev main_c_11 : Ref sig .tc := ⟨.hbm, 79, rfl⟩
abbrev main_v54 : Ref sig .tc := ⟨.hbm, 80, rfl⟩
abbrev main_v55 : Ref sig .tc := ⟨.hbm, 81, rfl⟩
abbrev main_c_12 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_cst_13 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_call2_cst : Ref sig .tc := ⟨.hbm, 98, rfl⟩
abbrev main_call2_v0 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S50000_S1650000_d0 : Shape.Concatenates [S1600000, S50000] S1650000 0
  slices_S2x1600000_S1x1600000_1_0 : S2x1600000.Slices ![1, 0] S1x1600000
  bcast_S_S50000 : S_.BroadcastsInDim S50000 (![] : Fin 0 → Fin S50000.rank)
  bcast_S_S1650000 : S_.BroadcastsInDim S1650000 (![] : Fin 0 → Fin S1650000.rank)
  bcast_S1650000_S1650000x1_0 : S1650000.BroadcastsInDim S1650000x1 (![0] : Fin 1 → Fin S1650000x1.rank)
  bcast_S1650000x1_S1650000x128_0_1 : S1650000x1.BroadcastsInDim S1650000x128 (![0, 1] : Fin 2 → Fin S1650000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S16_S1x16_1 : S16.BroadcastsInDim S1x16 (![1] : Fin 1 → Fin S1x16.rank)
  bcast_S1x16_S50000x16_0_1 : S1x16.BroadcastsInDim S50000x16 (![0, 1] : Fin 2 → Fin S50000x16.rank)
  scatter_S50000_S1650000x1_S1650000_n_0_0_1_wf : ScatterDims.WF S50000 S1650000x1 S1650000 [] [0] [0] 1
  gather_S50000_S1650000x1_S1650000_n_0_n_n_0_1_1_wf : GatherDims.WF S50000 S1650000x1 S1650000 [] [0] [] [0] [] 1 ![1]
  dot_S50000x128_S128x128_S50000x128_1_0_0_1_n_n_wf : DotDims.WF S50000x128 S128x128 S50000x128 [1] [0] [0] [1] [] []
  gather_S50000x128_S1650000x1_S1650000x128_1_0_n_n_0_1_1128_wf : GatherDims.WF S50000x128 S1650000x1 S1650000x128 [1] [0] [] [0] [] 1 ![1, 128]
  scatter_S50000x128_S1650000x1_S1650000x128_1_0_0_1_wf : ScatterDims.WF S50000x128 S1650000x1 S1650000x128 [1] [0] [0] 1
  dot_S50000x128_S128x16_S50000x16_1_0_0_1_n_n_wf : DotDims.WF S50000x128 S128x16 S50000x16 [1] [0] [0] [1] [] []

variable [Facts₀]

def scatter_S50000_S1650000x1_S1650000_n_0_0_1 : ScatterDims S50000 S1650000x1 S1650000 where
  updateWindowDims := []
  insertedWindowDims := [0]
  scatterDimsToOperandDims := [0]
  indexVectorDim := 1
  wf := scatter_S50000_S1650000x1_S1650000_n_0_0_1_wf
def gather_S50000_S1650000x1_S1650000_n_0_n_n_0_1_1 : GatherDims S50000 S1650000x1 S1650000 where
  offsetDims := []
  collapsedSliceDims := [0]
  operandBatchingDims := []
  startIndicesBatchingDims := []
  startIndexMap := [0]
  indexVectorDim := 1
  sliceSizes := ![1]
  wf := gather_S50000_S1650000x1_S1650000_n_0_n_n_0_1_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S1650000x1_S1650000x128_1_0_n_n_0_1_1128 : GatherDims S50000x128 S1650000x1 S1650000x128 where
  offsetDims := [1]
  collapsedSliceDims := [0]
  operandBatchingDims := []
  startIndicesBatchingDims := []
  startIndexMap := [0]
  indexVectorDim := 1
  sliceSizes := ![1, 128]
  wf := gather_S50000x128_S1650000x1_S1650000x128_1_0_n_n_0_1_1128_wf
def scatter_S50000x128_S1650000x1_S1650000x128_1_0_0_1 : ScatterDims S50000x128 S1650000x1 S1650000x128 where
  updateWindowDims := [1]
  insertedWindowDims := [0]
  scatterDimsToOperandDims := [0]
  indexVectorDim := 1
  wf := scatter_S50000x128_S1650000x1_S1650000x128_1_0_0_1_wf
def dot_S50000x128_S128x16_S50000x16_1_0_0_1_n_n : DotDims S50000x128 S128x16 S50000x16 where
  lhsContracting := [1]
  rhsContracting := [0]
  lhsNonContracting := [0]
  rhsNonContracting := [1]
  lhsBatch := []
  rhsBatch := []
  wf := dot_S50000x128_S128x16_S50000x16_1_0_0_1_n_n_wf

class Facts : Prop extends Facts₀ where

variable [Facts]
-- ==== Proof.Spec.lean ====
/-
  A two-layer graph convolution with a dense classifier head, as ONE function of the argument arrays.

  The edge list `e` (2 × 1,600,000 node numbers) is extended by one self-loop per node, giving 1,650,000 messages with
  a source node `src` and a destination node `dst` each. The degree of a node counts the messages that arrive at it;
  a message's weight is the product of the inverse square roots of the degrees of its two end points (zero where a
  degree is not positive). One convolution takes a 50,000 × 128 array `p` of node features (already multiplied by the
  layer's weight matrix), sends row `src` of `p` times the message's weight along every message, adds what arrives at
  each node, adds the bias and clamps below at zero. The network is

      logits = conv (conv (x · W1) b1 · W2) b2 · Wc + bc

  with `·` the matrix product contracting the left factor's second axis with the right factor's first.
  Everything here is stated for any float interpretation; the matrix products are the host's `dot_general`.
-/
import proofs.«150165_j40544491274720_1_alg».proof.ReferenceIdeal
import proofs.«150165_j40544491274720_1_alg».proof.Proof.Gen.ReferenceIdeal
import Idealize.ShloMosaic.PureOps.Ideal

noncomputable section

namespace Cert.Gcn

open Idealize.ShloMosaic Cert.ReferenceIdeal Cert.ReferenceIdeal.Facts₀

variable {F : FTy → Type} [FloatOps F]

/-- Row 0 of the edge list followed by the node numbers 0 … 49,999: the source node of every message. -/
def srcIds (e : (⟨S2x1600000, .i32⟩ : BufTy).Contents (Elt F)) : (⟨S1650000, .i32⟩ : BufTy).Contents (Elt F) :=
  concatenate S1650000 0 [⟨S1600000, (shapeCast _ (extractStridedSlice S1x1600000 ![0, 0] e slices_S2x1600000_S1x1600000_0_0) shapeCasts_S1x1600000_S1600000)⟩, ⟨S50000, (iotaInDim S50000 32 0)⟩] concatenates_S1600000_S50000_S1650000_d0

/-- Row 1 of the edge list followed by the node numbers 0 … 49,999: the destination node of every message. -/
def dstIds (e : (⟨S2x1600000, .i32⟩ : BufTy).Contents (Elt F)) : (⟨S1650000, .i32⟩ : BufTy).Contents (Elt F) :=
  concatenate S1650000 0 [⟨S1600000, (shapeCast _ (extractStridedSlice S1x1600000 ![1, 0] e slices_S2x1600000_S1x1600000_1_0) shapeCasts_S1x1600000_S1600000)⟩, ⟨S50000, (iotaInDim S50000 32 0)⟩] concatenates_S1600000_S50000_S1650000_d0

/-- A negative node number counts from the end: the number of nodes is added to it. -/
def wrapIds (v : (⟨S1650000, .i32⟩ : BufTy).Contents (Elt F)) : (⟨S1650000, .i32⟩ : BufTy).Contents (Elt F) :=
  select (cmpi .slt v (broadcastInDim S1650000 ![] bcast_S_S1650000 (constantI S_ 32 0#32))) (addi v (broadcastInDim S1650000 ![] bcast_S_S1650000 (constantI S_ 32 50000#32))) v

/-- A list of node numbers as a one-column table of indices. -/
def idColumn (v : (⟨S1650000, .i32⟩ : BufTy).Contents (Elt F)) : (⟨S1650000x1, .i32⟩ : BufTy).Contents (Elt F) :=
  broadcastInDim S1650000x1 ![0] bcast_S1650000_S1650000x1_0 v

/-- The degree of every node: one is added at the destination of every message. -/
def degree (e : (⟨S2x1600000, .i32⟩ : BufTy).Contents (Elt F)) : (⟨S50000, .f32⟩ : BufTy).Contents (Elt F) :=
  Host.scatterAdd scatter_S50000_S1650000x1_S1650000_n_0_0_1 (broadcastInDim S50000 ![] bcast_S_S50000 (constant (F := F) S_ .f32 0x00000000#32)) (idColumn (F := F) (wrapIds (F := F) (dstIds (F := F) e))) (broadcastInDim S1650000 ![] bcast_S_S1650000 (constant (F := F) S_ .f32 0x3F800000#32))

/-- The inverse square root of every node's degree, zero where the degree is not positive. -/
def invSqrtDegree (e : (⟨S2x1600000, .i32⟩ : BufTy).Contents (Elt F)) : (⟨S50000, .f32⟩ : BufTy).Contents (Elt F) :=
  select (cmpf .ogt (degree (F := F) e) (broadcastInDim S50000 ![] bcast_S_S50000 (constant (F := F) S_ .f32 0x00000000#32))) (Host.rsqrt (degree (F := F) e)) (broadcastInDim S50000 ![] bcast_S_S50000 (id (constant (F := F) S_ .f32 0x00000000#32)))

/-- The weight of every message: the product of that quantity at its source and at its destination. -/
def edgeWeight (e : (⟨S2x1600000, .i32⟩ : BufTy).Contents (Elt F)) : (⟨S1650000, .f32⟩ : BufTy).Contents (Elt F) :=
  mulf (Host.gather gather_S50000_S1650000x1_S1650000_n_0_n_n_0_1_1 (invSqrtDegree (F := F) e) (idColumn (F := F) (wrapIds (F := F) (srcIds (F := F) e)))) (Host.gather gather_S50000_S1650000x1_S1650000_n_0_n_n_0_1_1 (invSqrtDegree (F := F) e) (idColumn (F := F) (wrapIds (F := F) (dstIds (F := F) e))))

/-- One convolution of the node features `p`: every message carries its source's row of `p` times its weight, a node
    adds what arrives, then the bias `b`, clamped below at zero. -/
def conv (p : (⟨S50000x128, .f32⟩ : BufTy).Contents (Elt F)) (e : (⟨S2x1600000, .i32⟩ : BufTy).Contents (Elt F)) (b : (⟨S128, .f32⟩ : BufTy).Contents (Elt F)) : (⟨S50000x128, .f32⟩ : BufTy).Contents (Elt F) :=
  maximumf (addf (Host.scatterAdd scatter_S50000x128_S1650000x1_S1650000x128_1_0_0_1 (broadcastInDim S50000x128 ![] bcast_S_S50000x128 (constant (F := F) S_ .f32 0x00000000#32)) (idColumn (F := F) (dstIds (F := F) e)) (mulf (Host.gather gather_S50000x128_S1650000x1_S1650000x128_1_0_n_n_0_1_1128 p (idColumn (F := F) (wrapIds (F := F) (srcIds (F := F) e)))) (broadcastInDim S1650000x128 ![0, 1] bcast_S1650000x1_S1650000x128_0_1 (broadcastInDim S1650000x1 ![0] bcast_S1650000_S1650000x1_0 (edgeWeight (F := F) e))))) (broadcastInDim S50000x128 ![0, 1] bcast_S1x128_S50000x128_0_1 (broadcastInDim S1x128 ![1] bcast_S128_S1x128_1 b))) (broadcastInDim S50000x128 ![] bcast_S_S50000x128 (constant (F := F) S_ .f32 0x00000000#32))

/-- The node features times a 128 × 128 weight matrix. -/
def linear (h : (⟨S50000x128, .f32⟩ : BufTy).Contents (Elt F)) (w : (⟨S128x128, .f32⟩ : BufTy).Contents (Elt F)) : (⟨S50000x128, .f32⟩ : BufTy).Contents (Elt F) :=
  Host.dotGeneral dot_S50000x128_S128x128_S50000x128_1_0_0_1_n_n none h w

/-- The classifier head: the node features times the 128 × 16 matrix, plus the bias on every row. -/
def head (h : (⟨S50000x128, .f32⟩ : BufTy).Contents (Elt F)) (w : (⟨S128x16, .f32⟩ : BufTy).Contents (Elt F)) (b : (⟨S16, .f32⟩ : BufTy).Contents (Elt F)) : (⟨S50000x16, .f32⟩ : BufTy).Contents (Elt F) :=
  addf (Host.dotGeneral dot_S50000x128_S128x16_S50000x16_1_0_0_1_n_n none h w) (broadcastInDim S50000x16 ![0, 1] bcast_S1x16_S50000x16_0_1 (broadcastInDim S1x16 ![1] bcast_S16_S1x16_1 b))

/-- The first layer's output. -/
def hidden1 (x : (⟨S50000x128, .f32⟩ : BufTy).Contents (Elt F)) (e : (⟨S2x1600000, .i32⟩ : BufTy).Contents (Elt F)) (w1 : (⟨S128x128, .f32⟩ : BufTy).Contents (Elt F)) (b1 : (⟨S128, .f32⟩ : BufTy).Contents (Elt F)) : (⟨S50000x128, .f32⟩ : BufTy).Contents (Elt F) :=
  conv (F := F) (linear (F := F) x w1) e b1

/-- The second layer's output. -/
def hidden2 (x : (⟨S50000x128, .f32⟩ : BufTy).Contents (Elt F)) (e : (⟨S2x1600000, .i32⟩ : BufTy).Contents (Elt F)) (w1 : (⟨S128x128, .f32⟩ : BufTy).Contents (Elt F)) (b1 : (⟨S128, .f32⟩ : BufTy).Contents (Elt F)) (w2 : (⟨S128x128, .f32⟩ : BufTy).Contents (Elt F)) (b2 : (⟨S128, .f32⟩ : BufTy).Contents (Elt F)) : (⟨S50000x128, .f32⟩ : BufTy).Contents (Elt F) :=
  conv (F := F) (linear (F := F) (hidden1 (F := F) x e w1 b1) w2) e b2

/-- The network's result. -/
def logits (x : (⟨S50000x128, .f32⟩ : BufTy).Contents (Elt F)) (e : (⟨S2x1600000, .i32⟩ : BufTy).Contents (Elt F)) (w1 : (⟨S128x128, .f32⟩ : BufTy).Contents (Elt F)) (b1 : (⟨S128, .f32⟩ : BufTy).Contents (Elt F)) (w2 : (⟨S128x128, .f32⟩ : BufTy).Contents (Elt F)) (b2 : (⟨S128, .f32⟩ : BufTy).Contents (Elt F)) (wc : (⟨S128x16, .f32⟩ : BufTy).Contents (Elt F)) (bc : (⟨S16, .f32⟩ : BufTy).Contents (Elt F)) : (⟨S50000x16, .f32⟩ : BufTy).Contents (Elt F) :=
  head (F := F) (hidden2 (F := F) x e w1 b1 w2 b2) wc bc

end Cert.Gcn

end
-- ==== Proof.RefRun.lean ====
/-
  The reference program's run, read back.

  The reference is a straight line of host operations: the node features times the first weight matrix, the
  messages gathered, weighted and added at their destinations, the bias and the clamp at zero, the same again with the
  second weight matrix, and the classifier head. Listed in order, with the operations of a called function standing in
  its call's place, the program IS the sequence of that list; so every weakly fair execution terminates, each buffer
  ending at what the operations leave there in order. Followed backwards from the result buffer, that is the network
  of the specification applied to the argument arrays; the arguments themselves are written by no operation.
-/
import proofs.«150165_j40544491274720_1_alg».proof.ReferenceIdeal
import proofs.«150165_j40544491274720_1_alg».proof.Proof.Gen.ReferenceIdeal
import proofs.«150165_j40544491274720_1_alg».proof.Proof.Spec
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The program's 97 host operations, in order. -/
abbrev ops : List (HloOp τ sig (Elt F)) :=
  [ StableHlo.nullary main_v0 (iotaInDim S50000 32 0),
    StableHlo.unary main_arg1 main_v1 ((extractStridedSlice S1x1600000 ![0, 0] · slices_S2x1600000_S1x1600000_0_0) : (⟨S2x1600000, .i32⟩ : BufTy).Contents (Elt F) → (⟨S1x1600000, .i32⟩ : BufTy).Contents (Elt F)),
    StableHlo.reshape main_v1 main_v2 rfl shapeCasts_S1x1600000_S1600000,
    StableHlo.binary main_v2 main_v0 main_v3 ((fun a b => concatenate S1650000 0 [⟨S1600000, a⟩, ⟨S50000, b⟩] concatenates_S1600000_S50000_S1650000_d0) : (⟨S1600000, .i32⟩ : BufTy).Contents (Elt F) → (⟨S50000, .i32⟩ : BufTy).Contents (Elt F) → (⟨S1650000, .i32⟩ : BufTy).Contents (Elt F)),
    StableHlo.unary main_arg1 main_v4 ((extractStridedSlice S1x1600000 ![1, 0] · slices_S2x1600000_S1x1600000_1_0) : (⟨S2x1600000, .i32⟩ : BufTy).Contents (Elt F) → (⟨S1x1600000, .i32⟩ : BufTy).Contents (Elt F)),
    StableHlo.reshape main_v4 main_v5 rfl shapeCasts_S1x1600000_S1600000,
    StableHlo.binary main_v5 main_v0 main_v6 ((fun a b => concatenate S1650000 0 [⟨S1600000, a⟩, ⟨S50000, b⟩] concatenates_S1600000_S50000_S1650000_d0) : (⟨S1600000, .i32⟩ : BufTy).Contents (Elt F) → (⟨S50000, .i32⟩ : BufTy).Contents (Elt F) → (⟨S1650000, .i32⟩ : BufTy).Contents (Elt F)),
    StableHlo.nullary main_cst (constant S_ .f32 0x00000000#32),
    StableHlo.unary main_cst main_v7 (broadcastInDim S50000 ![] bcast_S_S50000 : (⟨S_, .f32⟩ : BufTy).Contents (Elt F) → (⟨S50000, .f32⟩ : BufTy).Contents (Elt F)),
    StableHlo.nullary main_c (constantI S_ 32 0#32),
    StableHlo.unary main_c main_v8 (broadcastInDim S1650000 ![] bcast_S_S1650000 : (⟨S_, .i32⟩ : BufTy).Contents (Elt F) → (⟨S1650000, .i32⟩ : BufTy).Contents (Elt F)),
    StableHlo.binary main_v6 main_v8 main_v9 (cmpi .slt : (⟨S1650000, .i32⟩ : BufTy).Contents (Elt F) → (⟨S1650000, .i32⟩ : BufTy).Contents (Elt F) → (⟨S1650000, .i1⟩ : BufTy).Contents (Elt F)),
    StableHlo.nullary main_c_0 (constantI S_ 32 50000#32),
    StableHlo.unary main_c_0 main_v10 (broadcastInDim S1650000 ![] bcast_S_S1650000 : (⟨S_, .i32⟩ : BufTy).Contents (Elt F) → (⟨S1650000, .i32⟩ : BufTy).Contents (Elt F)),
    StableHlo.binary main_v6 main_v10 main_v11 (addi : (⟨S1650000, .i32⟩ : BufTy).Contents (Elt F) → (⟨S1650000, .i32⟩ : BufTy).Contents (Elt F) → (⟨S1650000, .i32⟩ : BufTy).Contents (Elt F)),
    StableHlo.ternary main_v9 main_v11 main_v6 main_v12 (select : (⟨S1650000, .i1⟩ : BufTy).Contents (Elt F) → (⟨S1650000, .i32⟩ : BufTy).Contents (Elt F) → (⟨S1650000, .i32⟩ : BufTy).Contents (Elt F) → (⟨S1650000, .i32⟩ : BufTy).Contents (Elt F)),
    StableHlo.unary main_v12 main_v13 (broadcastInDim S1650000x1 ![0] bcast_S1650000_S1650000x1_0 : (⟨S1650000, .i32⟩ : BufTy).Contents (Elt F) → (⟨S1650000x1, .i32⟩ : BufTy).Contents (Elt F)),
    StableHlo.nullary main_cst_1 (constant S_ .f32 0x3F800000#32),
    StableHlo.unary main_cst_1 main_v14 (broadcastInDim S1650000 ![] bcast_S_S1650000 : (⟨S_, .f32⟩ : BufTy).Contents (Elt F) → (⟨S1650000, .f32⟩ : BufTy).Contents (Elt F)),
    StableHlo.ternary main_v7 main_v13 main_v14 main_v15 ((fun x i u => Host.scatterAdd scatter_S50000_S1650000x1_S1650000_n_0_0_1 x i u) : (⟨S50000, .f32⟩ : BufTy).Contents (Elt F) → (⟨S1650000x1, .i32⟩ : BufTy).Contents (Elt F) → (⟨S1650000, .f32⟩ : BufTy).Contents (Elt F) → (⟨S50000, .f32⟩ : BufTy).Contents (Elt F)),
    StableHlo.nullary main_cst_2 (constant S_ .f32 0x00000000#32),
    StableHlo.unary main_cst_2 main_v16 (broadcastInDim S50000 ![] bcast_S_S50000 : (⟨S_, .f32⟩ : BufTy).Contents (Elt F) → (⟨S50000, .f32⟩ : BufTy).Contents (Elt F)),
    StableHlo.binary main_v15 main_v16 main_v17 (cmpf .ogt : (⟨S50000, .f32⟩ : BufTy).Contents (Elt F) → (⟨S50000, .f32⟩ : BufTy).Contents (Elt F) → (⟨S50000, .i1⟩ : BufTy).Contents (Elt F)),
    StableHlo.unary main_v15 main_v18 (Host.rsqrt : (⟨S50000, .f32⟩ : BufTy).Contents (Elt F) → (⟨S50000, .f32⟩ : BufTy).Contents (Elt F)),
    StableHlo.nullary main_cst_3 (constant S_ .f32 0x00000000#32),
    StableHlo.TRef.unary (.of main_cst_3 : StableHlo.TRef sig ⟨S_, .f32⟩) (.of main_call0_v0 : StableHlo.TRef sig ⟨S_, .f32⟩) id,
    StableHlo.TRef.unary (.of main_call0_v0 : StableHlo.TRef sig ⟨S_, .f32⟩) (.of main_call0_v1 : StableHlo.TRef sig ⟨S50000, .f32⟩) (broadcastInDim S50000 ![] bcast_S_S50000),
    StableHlo.TRef.ternary (.of main_v17 : StableHlo.TRef sig ⟨S50000, .i1⟩) (.of main_v18 : StableHlo.TRef sig ⟨S50000, .f32⟩) (.of main_call0_v1 : StableHlo.TRef sig ⟨S50000, .f32⟩) (.of main_v19 : StableHlo.TRef sig ⟨S50000, .f32⟩) select,
    StableHlo.nullary main_c_4 (constantI S_ 32 0#32),
    StableHlo.unary main_c_4 main_v20 (broadcastInDim S1650000 ![] bcast_S_S1650000 : (⟨S_, .i32⟩ : BufTy).Contents (Elt F) → (⟨S1650000, .i32⟩ : BufTy).Contents (Elt F)),
    StableHlo.binary main_v3 main_v20 main_v21 (cmpi .slt : (⟨S1650000, .i32⟩ : BufTy).Contents (Elt F) → (⟨S1650000, .i32⟩ : BufTy).Contents (Elt F) → (⟨S1650000, .i1⟩ : BufTy).Contents (Elt F)),
    StableHlo.nullary main_c_5 (constantI S_ 32 50000#32),
    StableHlo.unary main_c_5 main_v22 (broadcastInDim S1650000 ![] bcast_S_S1650000 : (⟨S_, .i32⟩ : BufTy).Contents (Elt F) → (⟨S1650000, .i32⟩ : BufTy).Contents (Elt F)),
    StableHlo.binary main_v3 main_v22 main_v23 (addi : (⟨S1650000, .i32⟩ : BufTy).Contents (Elt F) → (⟨S1650000, .i32⟩ : BufTy).Contents (Elt F) → (⟨S1650000, .i32⟩ : BufTy).Contents (Elt F)),
    StableHlo.ternary main_v21 main_v23 main_v3 main_v24 (select : (⟨S1650000, .i1⟩ : BufTy).Contents (Elt F) → (⟨S1650000, .i32⟩ : BufTy).Contents (Elt F) → (⟨S1650000, .i32⟩ : BufTy).Contents (Elt F) → (⟨S1650000, .i32⟩ : BufTy).Contents (Elt F)),
    StableHlo.unary main_v24 main_v25 (broadcastInDim S1650000x1 ![0] bcast_S1650000_S1650000x1_0 : (⟨S1650000, .i32⟩ : BufTy).Contents (Elt F) → (⟨S1650000x1, .i32⟩ : BufTy).Contents (Elt F)),
    StableHlo.binary main_v19 main_v25 main_v26 ((fun x i => Host.gather gather_S50000_S1650000x1_S1650000_n_0_n_n_0_1_1 x i) : (⟨S50000, .f32⟩ : BufTy).Contents (Elt F) → (⟨S1650000x1, .i32⟩ : BufTy).Contents (Elt F) → (⟨S1650000, .f32⟩ : BufTy).Contents (Elt F)),
    StableHlo.nullary main_c_6 (constantI S_ 32 0#32),
    StableHlo.unary main_c_6 main_v27 (broadcastInDim S1650000 ![] bcast_S_S1650000 : (⟨S_, .i32⟩ : BufTy).Contents (Elt F) → (⟨S1650000, .i32⟩ : BufTy).Contents (Elt F)),
    StableHlo.binary main_v6 main_v27 main_v28 (cmpi .slt : (⟨S1650000, .i32⟩ : BufTy).Contents (Elt F) → (⟨S1650000, .i32⟩ : BufTy).Contents (Elt F) → (⟨S1650000, .i1⟩ : BufTy).Contents (Elt F)),
    StableHlo.nullary main_c_7 (constantI S_ 32 50000#32),
    StableHlo.unary main_c_7 main_v29 (broadcastInDim S1650000 ![] bcast_S_S1650000 : (⟨S_, .i32⟩ : BufTy).Contents (Elt F) → (⟨S1650000, .i32⟩ : BufTy).Contents (Elt F)),
    StableHlo.binary main_v6 main_v29 main_v30 (addi : (⟨S1650000, .i32⟩ : BufTy).Contents (Elt F) → (⟨S1650000, .i32⟩ : BufTy).Contents (Elt F) → (⟨S1650000, .i32⟩ : BufTy).Contents (Elt F)),
    StableHlo.ternary main_v28 main_v30 main_v6 main_v31 (select : (⟨S1650000, .i1⟩ : BufTy).Contents (Elt F) → (⟨S1650000, .i32⟩ : BufTy).Contents (Elt F) → (⟨S1650000, .i32⟩ : BufTy).Contents (Elt F) → (⟨S1650000, .i32⟩ : BufTy).Contents (Elt F)),
    StableHlo.unary main_v31 main_v32 (broadcastInDim S1650000x1 ![0] bcast_S1650000_S1650000x1_0 : (⟨S1650000, .i32⟩ : BufTy).Contents (Elt F) → (⟨S1650000x1, .i32⟩ : BufTy).Contents (Elt F)),
    StableHlo.binary main_v19 main_v32 main_v33 ((fun x i => Host.gather gather_S50000_S1650000x1_S1650000_n_0_n_n_0_1_1 x i) : (⟨S50000, .f32⟩ : BufTy).Contents (Elt F) → (⟨S1650000x1, .i32⟩ : BufTy).Contents (Elt F) → (⟨S1650000, .f32⟩ : BufTy).Contents (Elt F)),
    StableHlo.binary main_v26 main_v33 main_v34 (mulf : (⟨S1650000, .f32⟩ : BufTy).Contents (Elt F) → (⟨S1650000, .f32⟩ : BufTy).Contents (Elt F) → (⟨S1650000, .f32⟩ : BufTy).Contents (Elt F)),
    StableHlo.binary main_arg0 main_arg2 main_v35 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.nullary main_c_8 (constantI S_ 32 0#32),
    StableHlo.unary main_c_8 main_v36 (broadcastInDim S1650000 ![] bcast_S_S1650000 : (⟨S_, .i32⟩ : BufTy).Contents (Elt F) → (⟨S1650000, .i32⟩ : BufTy).Contents (Elt F)),
    StableHlo.binary main_v3 main_v36 main_v37 (cmpi .slt : (⟨S1650000, .i32⟩ : BufTy).Contents (Elt F) → (⟨S1650000, .i32⟩ : BufTy).Contents (Elt F) → (⟨S1650000, .i1⟩ : BufTy).Contents (Elt F)),
    StableHlo.nullary main_c_9 (constantI S_ 32 50000#32),
    StableHlo.unary main_c_9 main_v38 (broadcastInDim S1650000 ![] bcast_S_S1650000 : (⟨S_, .i32⟩ : BufTy).Contents (Elt F) → (⟨S1650000, .i32⟩ : BufTy).Contents (Elt F)),
    StableHlo.binary main_v3 main_v38 main_v39 (addi : (⟨S1650000, .i32⟩ : BufTy).Contents (Elt F) → (⟨S1650000, .i32⟩ : BufTy).Contents (Elt F) → (⟨S1650000, .i32⟩ : BufTy).Contents (Elt F)),
    StableHlo.ternary main_v37 main_v39 main_v3 main_v40 (select : (⟨S1650000, .i1⟩ : BufTy).Contents (Elt F) → (⟨S1650000, .i32⟩ : BufTy).Contents (Elt F) → (⟨S1650000, .i32⟩ : BufTy).Contents (Elt F) → (⟨S1650000, .i32⟩ : BufTy).Contents (Elt F)),
    StableHlo.unary main_v40 main_v41 (broadcastInDim S1650000x1 ![0] bcast_S1650000_S1650000x1_0 : (⟨S1650000, .i32⟩ : BufTy).Contents (Elt F) → (⟨S1650000x1, .i32⟩ : BufTy).Contents (Elt F)),
    StableHlo.binary main_v35 main_v41 main_v42 ((fun x i => Host.gather gather_S50000x128_S1650000x1_S1650000x128_1_0_n_n_0_1_1128 x i) : (⟨S50000x128, .f32⟩ : BufTy).Contents (Elt F) → (⟨S1650000x1, .i32⟩ : BufTy).Contents (Elt F) → (⟨S1650000x128, .f32⟩ : BufTy).Contents (Elt F)),
    StableHlo.unary main_v34 main_v43 (broadcastInDim S1650000x1 ![0] bcast_S1650000_S1650000x1_0 : (⟨S1650000, .f32⟩ : BufTy).Contents (Elt F) → (⟨S1650000x1, .f32⟩ : BufTy).Contents (Elt F)),
    StableHlo.unary main_v43 main_v44 (broadcastInDim S1650000x128 ![0, 1] bcast_S1650000x1_S1650000x128_0_1 : (⟨S1650000x1, .f32⟩ : BufTy).Contents (Elt F) → (⟨S1650000x128, .f32⟩ : BufTy).Contents (Elt F)),
    StableHlo.binary main_v42 main_v44 main_v45 (mulf : (⟨S1650000x128, .f32⟩ : BufTy).Contents (Elt F) → (⟨S1650000x128, .f32⟩ : BufTy).Contents (Elt F) → (⟨S1650000x128, .f32⟩ : BufTy).Contents (Elt F)),
    StableHlo.nullary main_cst_10 (constant S_ .f32 0x00000000#32),
    StableHlo.unary main_cst_10 main_v46 (broadcastInDim S50000x128 ![] bcast_S_S50000x128 : (⟨S_, .f32⟩ : BufTy).Contents (Elt F) → (⟨S50000x128, .f32⟩ : BufTy).Contents (Elt F)),
    StableHlo.unary main_v6 main_v47 (broadcastInDim S1650000x1 ![0] bcast_S1650000_S1650000x1_0 : (⟨S1650000, .i32⟩ : BufTy).Contents (Elt F) → (⟨S1650000x1, .i32⟩ : BufTy).Contents (Elt F)),
    StableHlo.ternary main_v46 main_v47 main_v45 main_v48 ((fun x i u => Host.scatterAdd scatter_S50000x128_S1650000x1_S1650000x128_1_0_0_1 x i u) : (⟨S50000x128, .f32⟩ : BufTy).Contents (Elt F) → (⟨S1650000x1, .i32⟩ : BufTy).Contents (Elt F) → (⟨S1650000x128, .f32⟩ : BufTy).Contents (Elt F) → (⟨S50000x128, .f32⟩ : BufTy).Contents (Elt F)),
    StableHlo.unary main_arg3 main_v49 (broadcastInDim S1x128 ![1] bcast_S128_S1x128_1 : (⟨S128, .f32⟩ : BufTy).Contents (Elt F) → (⟨S1x128, .f32⟩ : BufTy).Contents (Elt F)),
    StableHlo.unary main_v49 main_v50 (broadcastInDim S50000x128 ![0, 1] bcast_S1x128_S50000x128_0_1 : (⟨S1x128, .f32⟩ : BufTy).Contents (Elt F) → (⟨S50000x128, .f32⟩ : BufTy).Contents (Elt F)),
    StableHlo.binary main_v48 main_v50 main_v51 (addf : (⟨S50000x128, .f32⟩ : BufTy).Contents (Elt F) → (⟨S50000x128, .f32⟩ : BufTy).Contents (Elt F) → (⟨S50000x128, .f32⟩ : BufTy).Contents (Elt F)),
    StableHlo.TRef.nullary (.of main_call1_cst : StableHlo.TRef sig ⟨S_, .f32⟩) (constant S_ .f32 0x00000000#32),
    StableHlo.TRef.unary (.of main_call1_cst : StableHlo.TRef sig ⟨S_, .f32⟩) (.of main_call1_v0 : StableHlo.TRef sig ⟨S50000x128, .f32⟩) (broadcastInDim S50000x128 ![] bcast_S_S50000x128),
    StableHlo.TRef.binary (.of main_v51 : StableHlo.TRef sig ⟨S50000x128, .f32⟩) (.of main_call1_v0 : StableHlo.TRef sig ⟨S50000x128, .f32⟩) (.of main_v52 : StableHlo.TRef sig ⟨S50000x128, .f32⟩) maximumf,
    StableHlo.binary main_v52 main_arg4 main_v53 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.nullary main_c_11 (constantI S_ 32 0#32),
    StableHlo.unary main_c_11 main_v54 (broadcastInDim S1650000 ![] bcast_S_S1650000 : (⟨S_, .i32⟩ : BufTy).Contents (Elt F) → (⟨S1650000, .i32⟩ : BufTy).Contents (Elt F)),
    StableHlo.binary main_v3 main_v54 main_v55 (cmpi .slt : (⟨S1650000, .i32⟩ : BufTy).Contents (Elt F) → (⟨S1650000, .i32⟩ : BufTy).Contents (Elt F) → (⟨S1650000, .i1⟩ : BufTy).Contents (Elt F)),
    StableHlo.nullary main_c_12 (constantI S_ 32 50000#32),
    StableHlo.unary main_c_12 main_v56 (broadcastInDim S1650000 ![] bcast_S_S1650000 : (⟨S_, .i32⟩ : BufTy).Contents (Elt F) → (⟨S1650000, .i32⟩ : BufTy).Contents (Elt F)),
    StableHlo.binary main_v3 main_v56 main_v57 (addi : (⟨S1650000, .i32⟩ : BufTy).Contents (Elt F) → (⟨S1650000, .i32⟩ : BufTy).Contents (Elt F) → (⟨S1650000, .i32⟩ : BufTy).Contents (Elt F)),
    StableHlo.ternary main_v55 main_v57 main_v3 main_v58 (select : (⟨S1650000, .i1⟩ : BufTy).Contents (Elt F) → (⟨S1650000, .i32⟩ : BufTy).Contents (Elt F) → (⟨S1650000, .i32⟩ : BufTy).Contents (Elt F) → (⟨S1650000, .i32⟩ : BufTy).Contents (Elt F)),
    StableHlo.unary main_v58 main_v59 (broadcastInDim S1650000x1 ![0] bcast_S1650000_S1650000x1_0 : (⟨S1650000, .i32⟩ : BufTy).Contents (Elt F) → (⟨S1650000x1, .i32⟩ : BufTy).Contents (Elt F)),
    StableHlo.binary main_v53 main_v59 main_v60 ((fun x i => Host.gather gather_S50000x128_S1650000x1_S1650000x128_1_0_n_n_0_1_1128 x i) : (⟨S50000x128, .f32⟩ : BufTy).Contents (Elt F) → (⟨S1650000x1, .i32⟩ : BufTy).Contents (Elt F) → (⟨S1650000x128, .f32⟩ : BufTy).Contents (Elt F)),
    StableHlo.unary main_v34 main_v61 (broadcastInDim S1650000x1 ![0] bcast_S1650000_S1650000x1_0 : (⟨S1650000, .f32⟩ : BufTy).Contents (Elt F) → (⟨S1650000x1, .f32⟩ : BufTy).Contents (Elt F)),
    StableHlo.unary main_v61 main_v62 (broadcastInDim S1650000x128 ![0, 1] bcast_S1650000x1_S1650000x128_0_1 : (⟨S1650000x1, .f32⟩ : BufTy).Contents (Elt F) → (⟨S1650000x128, .f32⟩ : BufTy).Contents (Elt F)),
    StableHlo.binary main_v60 main_v62 main_v63 (mulf : (⟨S1650000x128, .f32⟩ : BufTy).Contents (Elt F) → (⟨S1650000x128, .f32⟩ : BufTy).Contents (Elt F) → (⟨S1650000x128, .f32⟩ : BufTy).Contents (Elt F)),
    StableHlo.nullary main_cst_13 (constant S_ .f32 0x00000000#32),
    StableHlo.unary main_cst_13 main_v64 (broadcastInDim S50000x128 ![] bcast_S_S50000x128 : (⟨S_, .f32⟩ : BufTy).Contents (Elt F) → (⟨S50000x128, .f32⟩ : BufTy).Contents (Elt F)),
    StableHlo.unary main_v6 main_v65 (broadcastInDim S1650000x1 ![0] bcast_S1650000_S1650000x1_0 : (⟨S1650000, .i32⟩ : BufTy).Contents (Elt F) → (⟨S1650000x1, .i32⟩ : BufTy).Contents (Elt F)),
    StableHlo.ternary main_v64 main_v65 main_v63 main_v66 ((fun x i u => Host.scatterAdd scatter_S50000x128_S1650000x1_S1650000x128_1_0_0_1 x i u) : (⟨S50000x128, .f32⟩ : BufTy).Contents (Elt F) → (⟨S1650000x1, .i32⟩ : BufTy).Contents (Elt F) → (⟨S1650000x128, .f32⟩ : BufTy).Contents (Elt F) → (⟨S50000x128, .f32⟩ : BufTy).Contents (Elt F)),
    StableHlo.unary main_arg5 main_v67 (broadcastInDim S1x128 ![1] bcast_S128_S1x128_1 : (⟨S128, .f32⟩ : BufTy).Contents (Elt F) → (⟨S1x128, .f32⟩ : BufTy).Contents (Elt F)),
    StableHlo.unary main_v67 main_v68 (broadcastInDim S50000x128 ![0, 1] bcast_S1x128_S50000x128_0_1 : (⟨S1x128, .f32⟩ : BufTy).Contents (Elt F) → (⟨S50000x128, .f32⟩ : BufTy).Contents (Elt F)),
    StableHlo.binary main_v66 main_v68 main_v69 (addf : (⟨S50000x128, .f32⟩ : BufTy).Contents (Elt F) → (⟨S50000x128, .f32⟩ : BufTy).Contents (Elt F) → (⟨S50000x128, .f32⟩ : BufTy).Contents (Elt F)),
    StableHlo.TRef.nullary (.of main_call2_cst : StableHlo.TRef sig ⟨S_, .f32⟩) (constant S_ .f32 0x00000000#32),
    StableHlo.TRef.unary (.of main_call2_cst : StableHlo.TRef sig ⟨S_, .f32⟩) (.of main_call2_v0 : StableHlo.TRef sig ⟨S50000x128, .f32⟩) (broadcastInDim S50000x128 ![] bcast_S_S50000x128),
    StableHlo.TRef.binary (.of main_v69 : StableHlo.TRef sig ⟨S50000x128, .f32⟩) (.of main_call2_v0 : StableHlo.TRef sig ⟨S50000x128, .f32⟩) (.of main_v70 : StableHlo.TRef sig ⟨S50000x128, .f32⟩) maximumf,
    StableHlo.binary main_v70 main_arg6 main_v71 ((fun l r => Host.dotGeneral dot_S50000x128_S128x16_S50000x16_1_0_0_1_n_n none l r) : (⟨S50000x128, .f32⟩ : BufTy).Contents (Elt F) → (⟨S128x16, .f32⟩ : BufTy).Contents (Elt F) → (⟨S50000x16, .f32⟩ : BufTy).Contents (Elt F)),
    StableHlo.unary main_arg7 main_v72 (broadcastInDim S1x16 ![1] bcast_S16_S1x16_1 : (⟨S16, .f32⟩ : BufTy).Contents (Elt F) → (⟨S1x16, .f32⟩ : BufTy).Contents (Elt F)),
    StableHlo.unary main_v72 main_v73 (broadcastInDim S50000x16 ![0, 1] bcast_S1x16_S50000x16_0_1 : (⟨S1x16, .f32⟩ : BufTy).Contents (Elt F) → (⟨S50000x16, .f32⟩ : BufTy).Contents (Elt F)),
    StableHlo.binary main_v71 main_v73 main_v74 (addf : (⟨S50000x16, .f32⟩ : BufTy).Contents (Elt F) → (⟨S50000x16, .f32⟩ : BufTy).Contents (Elt F) → (⟨S50000x16, .f32⟩ : BufTy).Contents (Elt F)) ]

set_option maxRecDepth 8192 in
set_option maxHeartbeats 4000000 in
/-- The program is the sequence of its operations. -/
theorem main_eq (c : Dev nD) : main (F := F) c = seq ops := rfl

/-- No buffer and no semaphore of the program is scoped to a region. -/
theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
/-- Every operation touches device buffers only. -/
theorem ops_sub : (ops : List (HloOp τ sig (Elt F))).Forall fun op => op.bufs ⊆ tcRefs τ sig :=
  ⟨StableHlo.nullary_bufs_sub .., StableHlo.unary_bufs_sub .., StableHlo.reshape_bufs_sub .., StableHlo.binary_bufs_sub .., StableHlo.unary_bufs_sub .., StableHlo.reshape_bufs_sub .., StableHlo.binary_bufs_sub .., StableHlo.nullary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.nullary_bufs_sub .., StableHlo.unary_bufs_sub .., StableHlo.ternary_bufs_sub .., StableHlo.nullary_bufs_sub .., StableHlo.unary_bufs_sub .., StableHlo.binary_bufs_sub .., StableHlo.unary_bufs_sub .., StableHlo.nullary_bufs_sub .., StableHlo.unary_bufs_sub .., StableHlo.unary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.unary_bufs_sub .., StableHlo.ternary_bufs_sub .., StableHlo.unary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.unary_bufs_sub .., StableHlo.ternary_bufs_sub .., StableHlo.unary_bufs_sub .., StableHlo.unary_bufs_sub .., StableHlo.binary_bufs_sub .., StableHlo.nullary_bufs_sub .., StableHlo.unary_bufs_sub .., StableHlo.binary_bufs_sub .., StableHlo.binary_bufs_sub .., StableHlo.unary_bufs_sub .., StableHlo.unary_bufs_sub .., StableHlo.binary_bufs_sub ..⟩

set_option maxRecDepth 8192 in
set_option maxHeartbeats 40000000 in
/-- What the operations leave in the result buffer is the network applied to the argument arrays. -/
theorem result_eq (m : (ℓ : Loc nD τ sig) → Buf (Elt F) ℓ) (c : Dev nD) :
    after (ops (F := F)) (launchContents m c) (Proc.devRef .tc main_v74)
      = Cert.Gcn.logits (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  after_results_simp
  try after_results
  rfl

set_option maxRecDepth 8192 in
set_option maxHeartbeats 40000000 in
/-- From any memory with zero counters, every weakly fair execution of the reference terminates with the result
    buffer at the network applied to the argument arrays, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v74) = Cert.Gcn.logits (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h c main_v74).trans (result_eq m c),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl),
      (h c main_arg6).trans (by after_results_simp <;> rfl),
      (h c main_arg7).trans (by after_results_simp <;> rfl)⟩)
    (run_seq scopedRefs_eq scopedSems_eq defs main (fun _ => ops) main_eq (fun _ => ops_sub) m ρ)

end Cert.ReferenceIdeal.Hand

end
-- ==== Proof.KernelRun.lean ====
/-
  The kernel's run with its result named.

  The program is ten segments in order: three stretches of host operations, the first launch, two stretches, the
  second launch, two stretches, the third launch. Each segment starts from the buffer contents the one before leaves;
  the last contents are those after the third launch. Every weakly fair execution therefore terminates with every
  unscoped buffer at those last contents: in particular the result buffer, and the argument buffers, which no segment
  writes, as they were launched.
-/
import proofs.«150165_j40544491274720_1_alg».proof.Proof.Gen.KernelIdeal.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Whatever follows from "every unscoped buffer of every core holds the contents after the last launch" holds of the
    final state of every weakly fair execution, each of which terminates with nothing faulting: the launch deals
    every core its buffers at their launch contents, the ten segments carry them from contents to contents, and the
    last thread state is read against the final memory. -/
theorem run_of_last {Q : PUnit × MemSt nD τ sig (Elt F) → Prop}
    (hQ : ∀ s : MemSt nD τ sig (Elt F),
      (∀ c : Dev nD, ∀ b ∈ Pipeline.ucRefs τ sig, s.mem (((c : Thread nD τ)).1, b) = W10 m ρ c b) → Q (⟨⟩, s)) :
    θ_run defs (onTc (τ := τ) (main (F := F))) ⟨m, fun _ => 0, ρ⟩ Q :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := hQ)

/-- In particular the result buffer ends at the contents after the last launch, and the arguments, which no segment
    writes, as they were launched. -/
theorem run_last : θ_run defs (onTc (τ := τ) (main (F := F))) ⟨m, fun _ => 0, ρ⟩ (fun r => ∀ c : Dev nD,
      r.2.mem ((c.tc : Thread nD τ).loc main_v71) = W10 m ρ c (Proc.devRef .tc main_v71)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  run_of_last m ρ fun s h c =>
    ⟨h c _ (mem_uc main_v71 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c),
       (h c _ (mem_uc main_arg7 (by decide))).trans (W10_main_arg7 m ρ c)⟩

end Cert.KernelIdeal.Hand

end
-- ==== Proof.LibDot.lean ====
/-
  A matrix product read at an index, on the extended reals.

  For a rows × contraction by contraction × columns product — the dimension numbers that contract the left operand's
  second axis with the right operand's first, with no batch axis — the entry at (i, j) of the host's `dot_general`,
  and of a `tpu.matmul` accumulated into the zero splat, is the plain sum over the contraction coordinate k of
  l (i, k) · r (k, j). The sum over the product's own contraction index is re-indexed through the bijection between a
  one-axis contraction index and its coordinate; the operand indices are computed from the dimension numbers.
  Nothing here needs finiteness: only that the sum is re-indexed.
-/
import Idealize.ShloMosaic.Lib.ValueIdx
import Idealize.ShloMosaic.PureOps.Ideal.Laws

noncomputable section

namespace Cert.LibDot

open Idealize.ShloMosaic Idealize.ShloMosaic.ValueIdx

variable {M K N : Nat}

/-- The contraction of row `y 0` of `l` with column `y 1` of `r`: the sum over the product's contraction index is
    the sum over the one contracted coordinate. -/
theorem sum_plain (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (l : (⟨2, ![M, K]⟩ : Shape).Idx → EReal) (r : (⟨2, ![K, N]⟩ : Shape).Idx → EReal) (y : (⟨2, ![M, N]⟩ : Shape).Idx) :
    ∑ q : d.contr.Idx, l (d.lhsIdx y q) * r (d.rhsIdx y q) = ∑ k : Fin K, l (ix2 (y 0) k) * r (ix2 k (y 1)) := by
  obtain ⟨lc, rc, ln, rn, lb, rb, wf⟩ := d
  dsimp only at hlc hrc hln hrn hlb hrb
  subst hlc hrc hln hrn hlb hrb
  rw [← Equiv.sum_comp (contrEquiv1 (⟨[1], [0], [0], [1], [], [], wf⟩ : DotDims ⟨2, ![M, K]⟩ ⟨2, ![K, N]⟩ ⟨2, ![M, N]⟩) K rfl rfl).symm]
  refine Finset.sum_congr rfl fun k _ => ?_
  have hk := contrEquiv1_symm_val (⟨[1], [0], [0], [1], [], [], wf⟩ : DotDims ⟨2, ![M, K]⟩ ⟨2, ![K, N]⟩ ⟨2, ![M, N]⟩) K rfl rfl k
  have el : DotDims.lhsIdx (⟨[1], [0], [0], [1], [], [], wf⟩ : DotDims ⟨2, ![M, K]⟩ ⟨2, ![K, N]⟩ ⟨2, ![M, N]⟩) y
      ((contrEquiv1 (⟨[1], [0], [0], [1], [], [], wf⟩ : DotDims ⟨2, ![M, K]⟩ ⟨2, ![K, N]⟩ ⟨2, ![M, N]⟩) K rfl rfl).symm k)
      = ix2 (y 0) k := funext fun a => Fin.ext (by
    match a with
    | ⟨0, _⟩ =>
      unfold DotDims.lhsIdx
      rw [dif_neg (by simp), dif_pos (by simp)]
      rfl
    | ⟨1, _⟩ => exact (DotDims.lhsIdx_val_of_single _ rfl y _).trans hk)
  have er : DotDims.rhsIdx (⟨[1], [0], [0], [1], [], [], wf⟩ : DotDims ⟨2, ![M, K]⟩ ⟨2, ![K, N]⟩ ⟨2, ![M, N]⟩) y
      ((contrEquiv1 (⟨[1], [0], [0], [1], [], [], wf⟩ : DotDims ⟨2, ![M, K]⟩ ⟨2, ![K, N]⟩ ⟨2, ![M, N]⟩) K rfl rfl).symm k)
      = ix2 k (y 1) := funext fun a => Fin.ext (by
    match a with
    | ⟨0, _⟩ => exact (DotDims.rhsIdx_val_of_single _ rfl y _).trans hk
    | ⟨1, _⟩ =>
      unfold DotDims.rhsIdx
      rw [dif_neg (by simp), dif_pos (by simp)]
      rfl)
  rw [el, er]
  rfl

variable {φ₁ φ₂ : FTy}

/-- The host's `dot_general` of those dimension numbers, at an index: the sum over the contracted coordinate. -/
theorem dotGeneral_plain_apply (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (sched : HostSchedule)
    (l : FVec Ideal ⟨2, ![M, K]⟩ φ₁) (r : FVec Ideal ⟨2, ![K, N]⟩ φ₂) (y : (⟨2, ![M, N]⟩ : Shape).Idx) :
    FloatOps.dotGeneral d prec sched l r y = ∑ k : Fin K, l (ix2 (y 0) k) * r (ix2 k (y 1)) := by
  rw [Ideal.dotGeneral_apply]
  exact sum_plain d hlc hrc hln hrn hlb hrb l r y

/-- A `tpu.matmul` of those dimension numbers into the zero accumulator, at an index: the same sum. -/
theorem matmul_zero_plain_apply (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision)
    (l : FVec Ideal ⟨2, ![M, K]⟩ φ₁) (r : FVec Ideal ⟨2, ![K, N]⟩ φ₂) (y : (⟨2, ![M, N]⟩ : Shape).Idx) :
    FloatOps.matmul d prec l r (constant ⟨2, ![M, N]⟩ .f32 0x00000000#32) y
      = ∑ k : Fin K, l (ix2 (y 0) k) * r (ix2 k (y 1)) := by
  rw [Ideal.matmul_constant_zero_apply]
  exact sum_plain d hlc hrc hln hrn hlb hrb l r y

end Cert.LibDot

end
-- ==== Proof.MatProd.lean ====
/-
  The matrix product as a plain sum, and the host's `dot_general` as that product.

  For a rows × inner array `l` and an inner × columns array `r` of extended reals, `matProd l r` has at (i, j) the sum
  over the inner coordinate k of l (i, k) · r (k, j). On the extended reals the host's `dot_general` whose dimension
  numbers contract the left factor's second axis with the right factor's first (no batch axis) is that array.
  No finiteness is needed: the two sides are the same sum, re-indexed.
-/
import proofs.«150165_j40544491274720_1_alg».proof.Proof.LibDot

noncomputable section

namespace Cert.Gcn

open Idealize.ShloMosaic Idealize.ShloMosaic.ValueIdx

variable {M K N : Nat}

/-- Entry (i, j) is the sum over k of l (i, k) · r (k, j). -/
def matProd (l : (⟨2, ![M, K]⟩ : Shape).Idx → EReal) (r : (⟨2, ![K, N]⟩ : Shape).Idx → EReal) :
    (⟨2, ![M, N]⟩ : Shape).Idx → EReal :=
  fun i => ∑ k : Fin K, l (ix2 (i 0) k) * r (ix2 k (i 1))

variable {φ₁ φ₂ : FTy}

/-- The host's `dot_general` of those dimension numbers is the matrix product, as whole arrays. -/
theorem dotGeneral_eq_matProd (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (l : FVec Ideal ⟨2, ![M, K]⟩ φ₁) (r : FVec Ideal ⟨2, ![K, N]⟩ φ₂) :
    Host.dotGeneral (F := Ideal) d none l r = matProd l r := by
  funext y
  unfold Host.dotGeneral matProd
  exact Cert.LibDot.dotGeneral_plain_apply d hlc hrc hln hrn hlb hrb none _ l r y

/-- A matrix product accumulated into the zero splat, as a vector operation, is the matrix product too. -/
theorem matmul_zero_eq_matProd (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (l : FVec Ideal ⟨2, ![M, K]⟩ φ₁) (r : FVec Ideal ⟨2, ![K, N]⟩ φ₂) :
    matmul (F := Ideal) d none l r (constant ⟨2, ![M, N]⟩ .f32 0x00000000#32) = matProd l r := by
  funext y
  unfold matmul matProd
  exact Cert.LibDot.matmul_zero_plain_apply d hlc hrc hln hrn hlb hrb none l r y

/-- A block of rows of a product is the product of that block of rows with the right factor: if the left block's rows
    and the output block's rows sit at the same place in their arrays, and the right block is the whole right array,
    then reading the product through the output block is the product of the two blocks. The embeddings are arbitrary
    maps of indices with exactly those two properties. -/
theorem matProd_rowBlock {Mb : Nat} (l : (⟨2, ![M, K]⟩ : Shape).Idx → EReal) (r : (⟨2, ![K, N]⟩ : Shape).Idx → EReal)
    (eL : (⟨2, ![Mb, K]⟩ : Shape).Idx → (⟨2, ![M, K]⟩ : Shape).Idx)
    (eR : (⟨2, ![K, N]⟩ : Shape).Idx → (⟨2, ![K, N]⟩ : Shape).Idx)
    (eO : (⟨2, ![Mb, N]⟩ : Shape).Idx → (⟨2, ![M, N]⟩ : Shape).Idx)
    (hL : ∀ (j : (⟨2, ![Mb, N]⟩ : Shape).Idx) (k : Fin K), eL (ix2 (j 0) k) = ix2 (eO j 0) k)
    (hR : ∀ (j : (⟨2, ![Mb, N]⟩ : Shape).Idx) (k : Fin K), eR (ix2 k (j 1)) = ix2 k (eO j 1)) :
    matProd (fun y => l (eL y)) (fun y => r (eR y)) = fun j => matProd l r (eO j) := by
  funext j
  unfold matProd
  exact Finset.sum_congr rfl fun k _ => congrArg₂ (· * ·) (congrArg l (hL j k)) (congrArg r (hR j k))

/-- The product with a bias added on every row: entry (i, j) is the product's entry plus b j. -/
def biasedProd (l : (⟨2, ![M, K]⟩ : Shape).Idx → EReal) (r : (⟨2, ![K, N]⟩ : Shape).Idx → EReal)
    (b : (⟨1, ![N]⟩ : Shape).Idx → EReal) : (⟨2, ![M, N]⟩ : Shape).Idx → EReal :=
  fun i => matProd l r i + b (ix1 (i 1))

/-- A block of rows of the biased product is the biased product of that block of rows, the bias read whole. -/
theorem biasedProd_rowBlock {Mb : Nat} (l : (⟨2, ![M, K]⟩ : Shape).Idx → EReal) (r : (⟨2, ![K, N]⟩ : Shape).Idx → EReal)
    (b : (⟨1, ![N]⟩ : Shape).Idx → EReal)
    (eL : (⟨2, ![Mb, K]⟩ : Shape).Idx → (⟨2, ![M, K]⟩ : Shape).Idx)
    (eR : (⟨2, ![K, N]⟩ : Shape).Idx → (⟨2, ![K, N]⟩ : Shape).Idx)
    (eB : (⟨1, ![N]⟩ : Shape).Idx → (⟨1, ![N]⟩ : Shape).Idx)
    (eO : (⟨2, ![Mb, N]⟩ : Shape).Idx → (⟨2, ![M, N]⟩ : Shape).Idx)
    (hL : ∀ (j : (⟨2, ![Mb, N]⟩ : Shape).Idx) (k : Fin K), eL (ix2 (j 0) k) = ix2 (eO j 0) k)
    (hR : ∀ (j : (⟨2, ![Mb, N]⟩ : Shape).Idx) (k : Fin K), eR (ix2 k (j 1)) = ix2 k (eO j 1))
    (hB : ∀ j : (⟨2, ![Mb, N]⟩ : Shape).Idx, eB (ix1 (j 1)) = ix1 (eO j 1)) :
    biasedProd (fun y => l (eL y)) (fun y => r (eR y)) (fun y => b (eB y)) = fun j => biasedProd l r b (eO j) := by
  funext j
  unfold biasedProd
  exact congrArg₂ (· + ·) (congrFun (matProd_rowBlock l r eL eR eO hL hR) j) (congrArg b (hB j))

end Cert.Gcn

end
-- ==== Proof.Region0.lean ====
/-
  Launch 0 of the kernel: the array its output window leaves is a matrix product of the arrays it finds.

  The launch walks 10 grid points. Point t stages rows 5000·t … 5000·t + 4999 of the left array (all 128 columns) and the
  whole 128 × 128 right array, multiplies them into a zero accumulator and writes the 5000 × 128 block back to rows
  5000·t … of the output array. Entry (p, q) of that block is the sum over k of left (5000·t + p, k) · right (k, q):
  exactly block t of the product of the two whole arrays. The ten blocks tile the output's rows, so after the launch
  the output array IS the product, whatever the arrays held when the launch was entered.
-/
import proofs.«150165_j40544491274720_1_alg».proof.Proof.Gen.KernelIdeal.Frame
import proofs.«150165_j40544491274720_1_alg».proof.Proof.MatProd
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem zeroOffsets0 : (![0, 0] : Fin 2 → Nat) = fun _ => 0 := funext fun a => by fin_cases a <;> rfl

/-- The body's one stored value, entry by entry: the block product (the narrowing casts are the identity on the
    extended reals). -/
theorem payload0_eq (x0 : Vec Ideal S5000x128 .f32) (x1 : Vec Ideal S128x128 .f32) :
    k0_pay1 x0 x1 = Cert.Gcn.matProd (M := 5000) (K := 128) (N := 128) x0 x1 := by
  unfold k0_pay1
  exact Cert.Gcn.matmul_zero_eq_matProd (M := 5000) (K := 128) (N := 128) _ rfl rfl rfl rfl rfl rfl _ _

/-- The printed index maps over the grid: the left window and the output window move down one row block per point,
    the right window stays. -/
theorem blockIndex0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is block `t` of the product of the two arrays as the launch finds them. -/
theorem flushed0_eq (c : Dev nD) (t : Fin cfg0.N) :
    (dat0 V c).flushed 2 t = ((cfg0.win 2).blk t).view.read (Elt Ideal)
      (Cert.Gcn.matProd (M := 50000) (K := 128) (N := 128) (V c main_arg0) (V c main_arg2)) := by
  show (cfg0.win 2).cut (grid0.coords t) ((dat0 V c).after 2 t) = _
  rw [after0_2]
  unfold out0_2
  rw [View.canon_unit_zero zeroOffsets0]
  simp only [View.ld_unit_zero (S := S5000x128) zeroOffsets0, View.ld_unit_zero (S := S128x128) zeroOffsets0]
  rw [payload0_eq]
  obtain ⟨e0, e1, e2, e3, e4, e5⟩ := blockIndex0 t
  refine Cert.Gcn.matProd_rowBlock (M := 50000) (K := 128) (N := 128) (Mb := 5000) (V c main_arg0) (V c main_arg2)
    ((cfg0.win 0).blk t).view.emb ((cfg0.win 1).blk t).view.emb ((cfg0.win 2).blk t).view.emb (fun j k => ?_) (fun j k => ?_)
  · funext a; apply Fin.ext
    match a with
    | ⟨0, _⟩ => show win0_0.index t (0 : Fin 2) * 5000 + 1 * (j 0).val = win0_2.index t (0 : Fin 2) * 5000 + 1 * (j 0).val; omega
    | ⟨1, _⟩ => show win0_0.index t (1 : Fin 2) * 128 + 1 * k.val = k.val; omega
  · funext a; apply Fin.ext
    match a with
    | ⟨0, _⟩ => show win0_1.index t (0 : Fin 2) * 128 + 1 * k.val = k.val; omega
    | ⟨1, _⟩ => show win0_1.index t (1 : Fin 2) * 128 + 1 * (j 1).val = win0_2.index t (1 : Fin 2) * 128 + 1 * (j 1).val; omega

/-- An index of the output array lies in point `t`'s block iff each coordinate lies in the block's range. -/
theorem memBlock0 (t : Fin cfg0.N) (i : S50000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v35).slice (win0_2.rect t)).set ↔ _
  rw [View.set_slice_whole, Rect.mem_set_unit]
  exact Iff.rfl

/-- After the launch the output array is the product of the two arrays the launch found. -/
theorem product0 (c : Dev nD) :
    (dat0 V c).arrAt 2 cfg0.N = Cert.Gcn.matProd (M := 50000) (K := 128) (N := 128) (V c main_arg0) (V c main_arg2) :=
  (dat0 V c).arrAt_eq_of_cover 2 _ (fun t _ => flushed0_eq V c t) fun i => by
    have hN : cfg0.N = 10 := N_0
    have hi0 : (i 0).val < 50000 := (i 0).isLt
    have hi1 : (i 1).val < 128 := (i 1).isLt
    refine ⟨⟨(i 0).val / 5000, by rw [hN]; omega⟩, flush0_2 _, ?_⟩
    rw [memBlock0]
    obtain ⟨e0, e1, e2, e3, e4, e5⟩ := blockIndex0 ⟨(i 0).val / 5000, by rw [hN]; omega⟩
    intro a
    match a with
    | ⟨0, _⟩ => show win0_2.index _ (0 : Fin 2) * 5000 ≤ (i 0).val ∧ (i 0).val < win0_2.index _ (0 : Fin 2) * 5000 + 5000; rw [e4]; show (i 0).val / 5000 * 5000 ≤ (i 0).val ∧ (i 0).val < (i 0).val / 5000 * 5000 + 5000; omega
    | ⟨1, _⟩ => show win0_2.index _ (1 : Fin 2) * 128 ≤ (i 1).val ∧ (i 1).val < win0_2.index _ (1 : Fin 2) * 128 + 128; rw [e5]; omega

end Cert.KernelIdeal.Hand

end
-- ==== Proof.Region1.lean ====
/-
  Launch 1 of the kernel: the array its output window leaves is a matrix product of the arrays it finds.

  The launch walks 10 grid points. Point t stages rows 5000·t … 5000·t + 4999 of the left array (all 128 columns) and the
  whole 128 × 128 right array, multiplies them into a zero accumulator and writes the 5000 × 128 block back to rows
  5000·t … of the output array. Entry (p, q) of that block is the sum over k of left (5000·t + p, k) · right (k, q):
  exactly block t of the product of the two whole arrays. The ten blocks tile the output's rows, so after the launch
  the output array IS the product, whatever the arrays held when the launch was entered.
-/
import proofs.«150165_j40544491274720_1_alg».proof.Proof.Gen.KernelIdeal.Frame
import proofs.«150165_j40544491274720_1_alg».proof.Proof.MatProd
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem zeroOffsets1 : (![0, 0] : Fin 2 → Nat) = fun _ => 0 := funext fun a => by fin_cases a <;> rfl

/-- The body's one stored value, entry by entry: the block product (the cast of the left block to its own shape and
    the narrowing casts are the identity on the extended reals). -/
theorem payload1_eq (x0 : Vec Ideal S5000x128 .f32) (x1 : Vec Ideal S128x128 .f32) :
    k1_pay1 x0 x1 = Cert.Gcn.matProd (M := 5000) (K := 128) (N := 128) x0 x1 := by
  unfold k1_pay1
  simp only [shapeCast_self]
  exact Cert.Gcn.matmul_zero_eq_matProd (M := 5000) (K := 128) (N := 128) _ rfl rfl rfl rfl rfl rfl _ _

/-- The printed index maps over the grid: the left window and the output window move down one row block per point,
    the right window stays. -/
theorem blockIndex1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What point `t` writes back is block `t` of the product of the two arrays as the launch finds them. -/
theorem flushed1_eq (c : Dev nD) (t : Fin cfg1.N) :
    (dat1 V c).flushed 2 t = ((cfg1.win 2).blk t).view.read (Elt Ideal)
      (Cert.Gcn.matProd (M := 50000) (K := 128) (N := 128) (V c main_v52) (V c main_arg4)) := by
  show (cfg1.win 2).cut (grid1.coords t) ((dat1 V c).after 2 t) = _
  rw [after1_2]
  unfold out1_2
  rw [View.canon_unit_zero zeroOffsets1]
  simp only [View.ld_unit_zero (S := S5000x128) zeroOffsets1, View.ld_unit_zero (S := S128x128) zeroOffsets1]
  rw [payload1_eq]
  obtain ⟨e0, e1, e2, e3, e4, e5⟩ := blockIndex1 t
  refine Cert.Gcn.matProd_rowBlock (M := 50000) (K := 128) (N := 128) (Mb := 5000) (V c main_v52) (V c main_arg4)
    ((cfg1.win 0).blk t).view.emb ((cfg1.win 1).blk t).view.emb ((cfg1.win 2).blk t).view.emb (fun j k => ?_) (fun j k => ?_)
  · funext a; apply Fin.ext
    match a with
    | ⟨0, _⟩ => show win1_0.index t (0 : Fin 2) * 5000 + 1 * (j 0).val = win1_2.index t (0 : Fin 2) * 5000 + 1 * (j 0).val; omega
    | ⟨1, _⟩ => show win1_0.index t (1 : Fin 2) * 128 + 1 * k.val = k.val; omega
  · funext a; apply Fin.ext
    match a with
    | ⟨0, _⟩ => show win1_1.index t (0 : Fin 2) * 128 + 1 * k.val = k.val; omega
    | ⟨1, _⟩ => show win1_1.index t (1 : Fin 2) * 128 + 1 * (j 1).val = win1_2.index t (1 : Fin 2) * 128 + 1 * (j 1).val; omega

/-- An index of the output array lies in point `t`'s block iff each coordinate lies in the block's range. -/
theorem memBlock1 (t : Fin cfg1.N) (i : S50000x128.Idx) :
    i ∈ ((cfg1.win 2).blk t).view.set ↔ ∀ a : Fin 2, win1_2.index t a * S5000x128.size a ≤ (i a).val ∧ (i a).val < win1_2.index t a * S5000x128.size a + S5000x128.size a := by
  show i ∈ ((View.whole main_v53).slice (win1_2.rect t)).set ↔ _
  rw [View.set_slice_whole, Rect.mem_set_unit]
  exact Iff.rfl

/-- After the launch the output array is the product of the two arrays the launch found. -/
theorem product1 (c : Dev nD) :
    (dat1 V c).arrAt 2 cfg1.N = Cert.Gcn.matProd (M := 50000) (K := 128) (N := 128) (V c main_v52) (V c main_arg4) :=
  (dat1 V c).arrAt_eq_of_cover 2 _ (fun t _ => flushed1_eq V c t) fun i => by
    have hN : cfg1.N = 10 := N_1
    have hi0 : (i 0).val < 50000 := (i 0).isLt
    have hi1 : (i 1).val < 128 := (i 1).isLt
    refine ⟨⟨(i 0).val / 5000, by rw [hN]; omega⟩, flush1_2 _, ?_⟩
    rw [memBlock1]
    obtain ⟨e0, e1, e2, e3, e4, e5⟩ := blockIndex1 ⟨(i 0).val / 5000, by rw [hN]; omega⟩
    intro a
    match a with
    | ⟨0, _⟩ => show win1_2.index _ (0 : Fin 2) * 5000 ≤ (i 0).val ∧ (i 0).val < win1_2.index _ (0 : Fin 2) * 5000 + 5000; rw [e4]; show (i 0).val / 5000 * 5000 ≤ (i 0).val ∧ (i 0).val < (i 0).val / 5000 * 5000 + 5000; omega
    | ⟨1, _⟩ => show win1_2.index _ (1 : Fin 2) * 128 ≤ (i 1).val ∧ (i 1).val < win1_2.index _ (1 : Fin 2) * 128 + 128; rw [e5]; omega

end Cert.KernelIdeal.Hand

end
-- ==== Proof.Region2.lean ====
/-
  Launch 2 of the kernel: the array its output window leaves is a matrix product plus a bias row.

  The launch walks 10 grid points. Point t stages rows 5000·t … 5000·t + 4999 of the left array (all 128 columns), the
  whole 128 × 16 right array and the whole 16-entry bias, multiplies the two into a zero accumulator, adds the bias to
  every row and writes the 5000 × 16 block back to rows 5000·t … of the output array. Entry (p, q) of that block is the
  sum over k of left (5000·t + p, k) · right (k, q), plus bias q: block t of the biased product of the whole arrays.
  The ten blocks tile the output's rows, so after the launch the output array IS that biased product, whatever the
  arrays held when the launch was entered.
-/
import proofs.«150165_j40544491274720_1_alg».proof.Proof.Gen.KernelIdeal.Frame
import proofs.«150165_j40544491274720_1_alg».proof.Proof.MatProd
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem zeroOffsets2 : (![0, 0] : Fin 2 → Nat) = fun _ => 0 := funext fun a => by fin_cases a <;> rfl
theorem zeroOffset2 : (![0] : Fin 1 → Nat) = fun _ => 0 := funext fun a => by fin_cases a; rfl

/-- The body's one stored value, entry by entry: the block product plus the bias of the column (the cast of the left
    block to its own shape and the narrowing casts are the identity on the extended reals; the bias, cast to one row
    and spread over the 5000 rows, reads at (p, q) the bias at q). -/
theorem payload2_eq (x0 : Vec Ideal S5000x128 .f32) (x1 : Vec Ideal S128x16 .f32) (x2 : Vec Ideal S16 .f32) :
    k2_pay1 x0 x1 x2 = Cert.Gcn.biasedProd (M := 5000) (K := 128) (N := 16) x0 x1 x2 := by
  funext y
  unfold k2_pay1 Cert.Gcn.biasedProd
  simp only [shapeCast_self]
  rw [addf_apply]
  refine congrArg₂ (· + ·) (congrFun (Cert.Gcn.matmul_zero_eq_matProd (M := 5000) (K := 128) (N := 16) _ rfl rfl rfl rfl rfl rfl _ _) y) ?_
  refine (broadcastTo_apply (shapeCast S1x16 x2 shapeCasts_S16_S1x16) broadcasts_S1x16_S5000x16 y (ix2 0 (y 1))
    (fun a => by match a with | ⟨0, _⟩ => rfl | ⟨1, _⟩ => rfl)).trans ?_
  exact (shapeCast_addUnit_apply ![16] x2 shapeCasts_S16_S1x16 (ix2 0 (y 1))).trans
    (congrArg x2 (funext fun a => by match a with | ⟨0, _⟩ => rfl))

/-- The printed index maps over the grid: the left window and the output window move down one row block per point,
    the right window and the bias window stay. -/
theorem blockIndex2 : ∀ t : Fin cfg2.N, win2_0.index t (0 : Fin 2) = t.val ∧ win2_0.index t (1 : Fin 2) = 0
    ∧ win2_1.index t (0 : Fin 2) = 0 ∧ win2_1.index t (1 : Fin 2) = 0
    ∧ win2_3.index t (0 : Fin 2) = t.val ∧ win2_3.index t (1 : Fin 2) = 0 ∧ win2_2.index t (0 : Fin 1) = 0 :=
  (by decide +kernel : ∀ t : Fin grid2.N, _)

/-- What point `t` writes back is block `t` of the biased product of the three arrays as the launch finds them. -/
theorem flushed2_eq (c : Dev nD) (t : Fin cfg2.N) :
    (dat2 V c).flushed 3 t = ((cfg2.win 3).blk t).view.read (Elt Ideal)
      (Cert.Gcn.biasedProd (M := 50000) (K := 128) (N := 16) (V c main_v70) (V c main_arg6) (V c main_arg7)) := by
  show (cfg2.win 3).cut (grid2.coords t) ((dat2 V c).after 3 t) = _
  rw [after2_3]
  unfold out2_3
  rw [View.canon_unit_zero zeroOffsets2]
  simp only [View.ld_unit_zero (S := S5000x128) zeroOffsets2, View.ld_unit_zero (S := S128x16) zeroOffsets2, View.ld_unit_zero (S := S16) zeroOffset2]
  rw [payload2_eq]
  obtain ⟨e0, e1, e2, e3, e4, e5, e6⟩ := blockIndex2 t
  refine Cert.Gcn.biasedProd_rowBlock (M := 50000) (K := 128) (N := 16) (Mb := 5000) (V c main_v70) (V c main_arg6) (V c main_arg7)
    ((cfg2.win 0).blk t).view.emb ((cfg2.win 1).blk t).view.emb ((cfg2.win 2).blk t).view.emb ((cfg2.win 3).blk t).view.emb (fun j k => ?_) (fun j k => ?_) (fun j => ?_)
  · funext a; apply Fin.ext
    match a with
    | ⟨0, _⟩ => show win2_0.index t (0 : Fin 2) * 5000 + 1 * (j 0).val = win2_3.index t (0 : Fin 2) * 5000 + 1 * (j 0).val; omega
    | ⟨1, _⟩ => show win2_0.index t (1 : Fin 2) * 128 + 1 * k.val = k.val; omega
  · funext a; apply Fin.ext
    match a with
    | ⟨0, _⟩ => show win2_1.index t (0 : Fin 2) * 128 + 1 * k.val = k.val; omega
    | ⟨1, _⟩ => show win2_1.index t (1 : Fin 2) * 16 + 1 * (j 1).val = win2_3.index t (1 : Fin 2) * 16 + 1 * (j 1).val; omega
  · funext a; apply Fin.ext
    match a with
    | ⟨0, _⟩ => show win2_2.index t (0 : Fin 1) * 16 + 1 * (j 1).val = win2_3.index t (1 : Fin 2) * 16 + 1 * (j 1).val; omega

/-- An index of the output array lies in point `t`'s block iff each coordinate lies in the block's range. -/
theorem memBlock2 (t : Fin cfg2.N) (i : S50000x16.Idx) :
    i ∈ ((cfg2.win 3).blk t).view.set ↔ ∀ a : Fin 2, win2_3.index t a * S5000x16.size a ≤ (i a).val ∧ (i a).val < win2_3.index t a * S5000x16.size a + S5000x16.size a := by
  show i ∈ ((View.whole main_v71).slice (win2_3.rect t)).set ↔ _
  rw [View.set_slice_whole, Rect.mem_set_unit]
  exact Iff.rfl

/-- After the launch the output array is the biased product of the three arrays the launch found. -/
theorem product2 (c : Dev nD) :
    (dat2 V c).arrAt 3 cfg2.N = Cert.Gcn.biasedProd (M := 50000) (K := 128) (N := 16) (V c main_v70) (V c main_arg6) (V c main_arg7) :=
  (dat2 V c).arrAt_eq_of_cover 3 _ (fun t _ => flushed2_eq V c t) fun i => by
    have hN : cfg2.N = 10 := N_2
    have hi0 : (i 0).val < 50000 := (i 0).isLt
    have hi1 : (i 1).val < 16 := (i 1).isLt
    refine ⟨⟨(i 0).val / 5000, by rw [hN]; omega⟩, flush2_3 _, ?_⟩
    rw [memBlock2]
    obtain ⟨e0, e1, e2, e3, e4, e5, e6⟩ := blockIndex2 ⟨(i 0).val / 5000, by rw [hN]; omega⟩
    intro a
    match a with
    | ⟨0, _⟩ => show win2_3.index _ (0 : Fin 2) * 5000 ≤ (i 0).val ∧ (i 0).val < win2_3.index _ (0 : Fin 2) * 5000 + 5000; rw [e4]; show (i 0).val / 5000 * 5000 ≤ (i 0).val ∧ (i 0).val < (i 0).val / 5000 * 5000 + 5000; omega
    | ⟨1, _⟩ => show win2_3.index _ (1 : Fin 2) * 16 ≤ (i 1).val ∧ (i 1).val < win2_3.index _ (1 : Fin 2) * 16 + 16; rw [e5]; omega

end Cert.KernelIdeal.Hand

end
-- ==== Proof.SpecSums.lean ====
/-
  The specification's two dense layers as plain sums.

  On the extended reals the specification's `linear h w` is the matrix product of `h` and `w`, and its classifier head
  `head h w b` is that product with `b` added on every row: the host's `dot_general` is the sum over the contracted
  coordinate, and the two broadcasts that spread the bias over the rows read, at (i, j), the bias at j.
-/
import proofs.«150165_j40544491274720_1_alg».proof.Proof.Spec
import proofs.«150165_j40544491274720_1_alg».proof.Proof.MatProd
import Idealize.ShloMosaic.Lib.Pipeline.Value
import Idealize.ShloMosaic.Lib.ValueIdx

noncomputable section

namespace Cert.Gcn

open Idealize.ShloMosaic Idealize.ShloMosaic.ValueIdx Cert.ReferenceIdeal Cert.ReferenceIdeal.Facts₀

/-- The features times a weight matrix, as a sum over the contracted coordinate. -/
theorem linear_eq (h : (⟨S50000x128, .f32⟩ : BufTy).Contents (Elt Ideal)) (w : (⟨S128x128, .f32⟩ : BufTy).Contents (Elt Ideal)) :
    linear (F := Ideal) h w = matProd (M := 50000) (K := 128) (N := 128) h w :=
  dotGeneral_eq_matProd (M := 50000) (K := 128) (N := 128) _ rfl rfl rfl rfl rfl rfl h w

/-- The classifier head, as that sum plus the bias of the column. -/
theorem head_eq (h : (⟨S50000x128, .f32⟩ : BufTy).Contents (Elt Ideal)) (w : (⟨S128x16, .f32⟩ : BufTy).Contents (Elt Ideal))
    (b : (⟨S16, .f32⟩ : BufTy).Contents (Elt Ideal)) :
    head (F := Ideal) h w b = biasedProd (M := 50000) (K := 128) (N := 16) h w b := by
  funext i
  unfold head biasedProd
  rw [addf_apply, dotGeneral_eq_matProd (M := 50000) (K := 128) (N := 16) _ rfl rfl rfl rfl rfl rfl h w]
  refine congrArg₂ (· + ·) rfl ?_
  exact (broadcastInDim_apply ![0, 1] bcast_S1x16_S50000x16_0_1 (broadcastInDim S1x16 ![1] bcast_S16_S1x16_1 b) i (ix2 0 (i 1))
      (fun a => by match a with | ⟨0, _⟩ => rfl | ⟨1, _⟩ => rfl)).trans
    (broadcastInDim_apply ![1] bcast_S16_S1x16_1 b (ix2 0 (i 1)) (ix1 (i 1)) (fun a => by match a with | ⟨0, _⟩ => rfl))

/-- Equal factors and equal biases give equal biased products. -/
theorem biasedProd_congr {M K N : Nat} {l l' : (⟨2, ![M, K]⟩ : Shape).Idx → EReal} {r r' : (⟨2, ![K, N]⟩ : Shape).Idx → EReal}
    {b b' : (⟨1, ![N]⟩ : Shape).Idx → EReal} (hl : l = l') (hr : r = r') (hb : b = b') :
    biasedProd l r b = biasedProd l' r' b' := by
  subst hl hr hb; rfl

end Cert.Gcn

end
-- ==== Proof.Stretches.lean ====
/-
  What the kernel's stretches of host operations compute, in terms of the contents they start from.

  From any contents `W` of the buffers: the three stretches before the first launch leave, from the edge list held in the
  second argument's buffer, the source node and the destination node of every message and the weight of every
  message; the two stretches after a launch turn the array `p` that launch left into one convolution of `p` — gather
  by source, weight, add at the destination, add the bias held in an argument's buffer, clamp at zero — reading the
  three edge arrays from their buffers. Each statement is the operations composed in order; nothing is computed.
  They hold for any float interpretation.
-/
import proofs.«150165_j40544491274720_1_alg».proof.Proof.Gen.KernelIdeal.Launch
import proofs.«150165_j40544491274720_1_alg».proof.Proof.Spec
import Idealize.ShloMosaic.Lib.StableHlo.Run

set_option maxRecDepth 16384

noncomputable section

namespace Cert.Gcn

open Idealize.ShloMosaic Cert.ReferenceIdeal Cert.ReferenceIdeal.Facts₀

variable {F : FTy → Type} [FloatOps F]

/-- One convolution of `p` with the three edge arrays given: `conv` is this at the arrays the specification computes
    from the edge list. -/
def convWith (p : (⟨S50000x128, .f32⟩ : BufTy).Contents (Elt F)) (src dst : (⟨S1650000, .i32⟩ : BufTy).Contents (Elt F))
    (wgt : (⟨S1650000, .f32⟩ : BufTy).Contents (Elt F)) (b : (⟨S128, .f32⟩ : BufTy).Contents (Elt F)) : (⟨S50000x128, .f32⟩ : BufTy).Contents (Elt F) :=
  maximumf (addf (Host.scatterAdd scatter_S50000x128_S1650000x1_S1650000x128_1_0_0_1 (broadcastInDim S50000x128 ![] bcast_S_S50000x128 (constant (F := F) S_ .f32 0x00000000#32)) (idColumn (F := F) dst) (mulf (Host.gather gather_S50000x128_S1650000x1_S1650000x128_1_0_n_n_0_1_1128 p (idColumn (F := F) (wrapIds (F := F) src))) (broadcastInDim S1650000x128 ![0, 1] bcast_S1650000x1_S1650000x128_0_1 (broadcastInDim S1650000x1 ![0] bcast_S1650000_S1650000x1_0 wgt)))) (broadcastInDim S50000x128 ![0, 1] bcast_S1x128_S50000x128_0_1 (broadcastInDim S1x128 ![1] bcast_S128_S1x128_1 b))) (broadcastInDim S50000x128 ![] bcast_S_S50000x128 (constant (F := F) S_ .f32 0x00000000#32))

theorem conv_eq_convWith (p : (⟨S50000x128, .f32⟩ : BufTy).Contents (Elt F)) (e : (⟨S2x1600000, .i32⟩ : BufTy).Contents (Elt F))
    (b : (⟨S128, .f32⟩ : BufTy).Contents (Elt F)) :
    conv (F := F) p e b = convWith (F := F) p (srcIds (F := F) e) (dstIds (F := F) e) (edgeWeight (F := F) e) b := rfl

end Cert.Gcn

namespace Cert.KernelIdeal.Hand

open Cert.KernelIdeal Cert.KernelIdeal.Gen Idealize.ShloMosaic Idealize.ShloMosaic.TcCoe Idealize.SL.Sem
open Idealize.ShloMosaic.StableHlo

variable {F : FTy → Type} [FloatOps F]

set_option maxHeartbeats 4000000 in
/-- The source node of every message, after the stretches before the first launch. -/
theorem src_before0 (W : Valuation τ sig (Elt F)) :
    after hostOps0_2 (after hostOps0_1 (after hostOps0 W)) (Proc.devRef .tc main_v3)
      = Cert.Gcn.srcIds (F := F) (W (Proc.devRef .tc main_arg1)) := by
  after_results_simp
  try after_results
  rfl

set_option maxHeartbeats 4000000 in
/-- The destination node of every message. -/
theorem dst_before0 (W : Valuation τ sig (Elt F)) :
    after hostOps0_2 (after hostOps0_1 (after hostOps0 W)) (Proc.devRef .tc main_v6)
      = Cert.Gcn.dstIds (F := F) (W (Proc.devRef .tc main_arg1)) := by
  after_results_simp
  try after_results
  rfl

set_option maxHeartbeats 4000000 in
/-- The weight of every message. -/
theorem wgt_before0 (W : Valuation τ sig (Elt F)) :
    after hostOps0_2 (after hostOps0_1 (after hostOps0 W)) (Proc.devRef .tc main_v34)
      = Cert.Gcn.edgeWeight (F := F) (W (Proc.devRef .tc main_arg1)) := by
  after_results_simp
  try after_results
  rfl

set_option maxHeartbeats 4000000 in
/-- The two stretches after the first launch: one convolution of the array it left, with the first bias. -/
theorem conv_between01 (W : Valuation τ sig (Elt F)) :
    after hostOps1_1 (after hostOps1 W) (Proc.devRef .tc main_v52)
      = Cert.Gcn.convWith (F := F) (W (Proc.devRef .tc main_v35)) (W (Proc.devRef .tc main_v3)) (W (Proc.devRef .tc main_v6))
          (W (Proc.devRef .tc main_v34)) (W (Proc.devRef .tc main_arg3)) := by
  after_results_simp
  try after_results
  rfl

set_option maxHeartbeats 4000000 in
/-- The two stretches after the second launch: the same with the second bias. -/
theorem conv_between12 (W : Valuation τ sig (Elt F)) :
    after hostOps2_1 (after hostOps2 W) (Proc.devRef .tc main_v70)
      = Cert.Gcn.convWith (F := F) (W (Proc.devRef .tc main_v53)) (W (Proc.devRef .tc main_v3)) (W (Proc.devRef .tc main_v6))
          (W (Proc.devRef .tc main_v34)) (W (Proc.devRef .tc main_arg5)) := by
  after_results_simp
  try after_results
  rfl

end Cert.KernelIdeal.Hand

end
-- ==== Proof.Boundary.lean ====
/-
  The kernel's buffer contents from the launch to the return, and its result.

  Between two segments of the program the buffers hold definite contents. Three facts are followed through them.
  (1) No segment writes an argument, so each boundary still holds the eight arguments as launched. (2) The first three
  stretches of host operations compute, from the edge list alone, the source and destination node of every message and
  the weight of every message; no later segment writes them. (3) The first launch leaves the features times the first
  weight matrix; the next stretches turn that into the first layer's output (gather by source, weight, add at the
  destination, bias, clamp at zero); the second launch multiplies by the second weight matrix; the next stretches give
  the second layer's output; the third launch multiplies by the classifier's matrix and adds its bias. Put together, the
  result buffer after the last launch holds the network of the specification applied to the argument arrays.
-/
import proofs.«150165_j40544491274720_1_alg».proof.Proof.Gen.KernelIdeal.Frame
import proofs.«150165_j40544491274720_1_alg».proof.Proof.Region0
import proofs.«150165_j40544491274720_1_alg».proof.Proof.Region1
import proofs.«150165_j40544491274720_1_alg».proof.Proof.Region2
import proofs.«150165_j40544491274720_1_alg».proof.Proof.SpecSums
import proofs.«150165_j40544491274720_1_alg».proof.Proof.Stretches
import Idealize.ShloMosaic.Lib.StableHlo.Run

set_option maxRecDepth 16384

noncomputable section

namespace Cert.KernelIdeal.Hand

open Cert.KernelIdeal Cert.KernelIdeal.Gen Idealize.ShloMosaic Idealize.ShloMosaic.TcCoe Idealize.SL.Sem
open Idealize.ShloMosaic.StableHlo

variable (m : (ℓ : Loc nD τ sig) → Buf (Elt Ideal) ℓ) (ρ : Dev nD → PrngReg) (c : Dev nD)

/-- The contents `W` still hold the eight arguments as launched. -/
structure ArgsKept (W : Valuation τ sig (Elt Ideal)) : Prop where
  a0 : W (Proc.devRef .tc main_arg0) = m ((c : Thread nD τ).loc main_arg0)
  a1 : W (Proc.devRef .tc main_arg1) = m ((c : Thread nD τ).loc main_arg1)
  a2 : W (Proc.devRef .tc main_arg2) = m ((c : Thread nD τ).loc main_arg2)
  a3 : W (Proc.devRef .tc main_arg3) = m ((c : Thread nD τ).loc main_arg3)
  a4 : W (Proc.devRef .tc main_arg4) = m ((c : Thread nD τ).loc main_arg4)
  a5 : W (Proc.devRef .tc main_arg5) = m ((c : Thread nD τ).loc main_arg5)
  a6 : W (Proc.devRef .tc main_arg6) = m ((c : Thread nD τ).loc main_arg6)
  a7 : W (Proc.devRef .tc main_arg7) = m ((c : Thread nD τ).loc main_arg7)

/-- The contents `W` hold the source and destination node of every message and the weight of every message, as the
    specification computes them from the edge list. -/
structure EdgesKept (W : Valuation τ sig (Elt Ideal)) : Prop where
  src : W (Proc.devRef .tc main_v3) = Cert.Gcn.srcIds (F := Ideal) (m ((c : Thread nD τ).loc main_arg1))
  dst : W (Proc.devRef .tc main_v6) = Cert.Gcn.dstIds (F := Ideal) (m ((c : Thread nD τ).loc main_arg1))
  wgt : W (Proc.devRef .tc main_v34) = Cert.Gcn.edgeWeight (F := Ideal) (m ((c : Thread nD τ).loc main_arg1))

/-! ## The host stretches write no argument, and after the first three none of the three edge arrays -/

/-- The three stretches before the first launch write no argument. -/
theorem argsKept_before0 {W : Valuation τ sig (Elt Ideal)} (h : ArgsKept m c W) : ArgsKept m c (after hostOps0_2 (after hostOps0_1 (after hostOps0 W))) := by
  obtain ⟨h0, h1, h2, h3, h4, h5, h6, h7⟩ := h
  refine ⟨?_, ?_, ?_, ?_, ?_, ?_, ?_, ?_⟩ <;> (after_results_simp; assumption)

/-- Nor do the two stretches between the first and the second launch. -/
theorem argsKept_between01 {W : Valuation τ sig (Elt Ideal)} (h : ArgsKept m c W) : ArgsKept m c (after hostOps1_1 (after hostOps1 W)) := by
  obtain ⟨h0, h1, h2, h3, h4, h5, h6, h7⟩ := h
  refine ⟨?_, ?_, ?_, ?_, ?_, ?_, ?_, ?_⟩ <;> (after_results_simp; assumption)

theorem edgesKept_between01 {W : Valuation τ sig (Elt Ideal)} (h : EdgesKept m c W) : EdgesKept m c (after hostOps1_1 (after hostOps1 W)) := by
  obtain ⟨h0, h1, h2⟩ := h
  refine ⟨?_, ?_, ?_⟩ <;> (after_results_simp; assumption)

/-- Nor the two stretches between the second and the third launch. -/
theorem argsKept_between12 {W : Valuation τ sig (Elt Ideal)} (h : ArgsKept m c W) : ArgsKept m c (after hostOps2_1 (after hostOps2 W)) := by
  obtain ⟨h0, h1, h2, h3, h4, h5, h6, h7⟩ := h
  refine ⟨?_, ?_, ?_, ?_, ?_, ?_, ?_, ?_⟩ <;> (after_results_simp; assumption)

/-! ## The launches keep them too -/

/-- Launch 0 writes its output array only: an argument it stages as an input ends as it was found, and it touches no
    other argument. -/
theorem argsKept_launch0 (h : ArgsKept m c (W3 m ρ c)) : ArgsKept m c (W4 m ρ c) :=
  ⟨(W4_arr m ρ c 0).trans ((((dat0 (V3 m ρ) c).arrAt_in 0 rfl _).trans (A_eq0 (V3 m ρ) c 0)).trans h.a0),
    (W4_of_ne m ρ c main_arg1 (by decide)).trans h.a1,
    (W4_arr m ρ c 1).trans ((((dat0 (V3 m ρ) c).arrAt_in 1 rfl _).trans (A_eq0 (V3 m ρ) c 1)).trans h.a2),
    (W4_of_ne m ρ c main_arg3 (by decide)).trans h.a3,
    (W4_of_ne m ρ c main_arg4 (by decide)).trans h.a4,
    (W4_of_ne m ρ c main_arg5 (by decide)).trans h.a5,
    (W4_of_ne m ρ c main_arg6 (by decide)).trans h.a6,
    (W4_of_ne m ρ c main_arg7 (by decide)).trans h.a7⟩
theorem edgesKept_launch0 (h : EdgesKept m c (W3 m ρ c)) : EdgesKept m c (W4 m ρ c) :=
  ⟨(W4_of_ne m ρ c main_v3 (by decide)).trans h.src, (W4_of_ne m ρ c main_v6 (by decide)).trans h.dst,
    (W4_of_ne m ρ c main_v34 (by decide)).trans h.wgt⟩

/-- Launch 1 writes its output array only: an argument it stages as an input ends as it was found, and it touches no
    other argument. -/
theorem argsKept_launch1 (h : ArgsKept m c (W6 m ρ c)) : ArgsKept m c (W7 m ρ c) :=
  ⟨(W7_of_ne m ρ c main_arg0 (by decide)).trans h.a0,
    (W7_of_ne m ρ c main_arg1 (by decide)).trans h.a1,
    (W7_of_ne m ρ c main_arg2 (by decide)).trans h.a2,
    (W7_of_ne m ρ c main_arg3 (by decide)).trans h.a3,
    (W7_arr m ρ c 1).trans ((((dat1 (V6 m ρ) c).arrAt_in 1 rfl _).trans (A_eq1 (V6 m ρ) c 1)).trans h.a4),
    (W7_of_ne m ρ c main_arg5 (by decide)).trans h.a5,
    (W7_of_ne m ρ c main_arg6 (by decide)).trans h.a6,
    (W7_of_ne m ρ c main_arg7 (by decide)).trans h.a7⟩
theorem edgesKept_launch1 (h : EdgesKept m c (W6 m ρ c)) : EdgesKept m c (W7 m ρ c) :=
  ⟨(W7_of_ne m ρ c main_v3 (by decide)).trans h.src, (W7_of_ne m ρ c main_v6 (by decide)).trans h.dst,
    (W7_of_ne m ρ c main_v34 (by decide)).trans h.wgt⟩

/-! ## The edge arrays, from the edge list as launched -/

/-- The three stretches before the first launch compute the three edge arrays from the edge list, which is still the
    second argument as launched. -/
theorem edgesKept_before0 {W : Valuation τ sig (Elt Ideal)} (h : ArgsKept m c W) :
    EdgesKept m c (after hostOps0_2 (after hostOps0_1 (after hostOps0 W))) :=
  ⟨(src_before0 W).trans (congrArg (Cert.Gcn.srcIds (F := Ideal)) h.a1),
   (dst_before0 W).trans (congrArg (Cert.Gcn.dstIds (F := Ideal)) h.a1),
   (wgt_before0 W).trans (congrArg (Cert.Gcn.edgeWeight (F := Ideal)) h.a1)⟩

/-! ## The result -/

/-- After the last launch the result buffer holds the network applied to the argument arrays. -/
theorem last_result :
    W10 m ρ c (Proc.devRef .tc main_v71) = Cert.Gcn.logits (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  have A0 : ArgsKept m c (W0 m ρ c) := ⟨rfl, rfl, rfl, rfl, rfl, rfl, rfl, rfl⟩
  have A3 : ArgsKept m c (W3 m ρ c) := argsKept_before0 m c A0
  have E3 : EdgesKept m c (W3 m ρ c) := edgesKept_before0 m c A0
  have A4 : ArgsKept m c (W4 m ρ c) := argsKept_launch0 m ρ c A3
  have E4 : EdgesKept m c (W4 m ρ c) := edgesKept_launch0 m ρ c E3
  have P0 : W4 m ρ c (Proc.devRef .tc main_v35) = Cert.Gcn.linear (F := Ideal) (m ((c : Thread nD τ).loc main_arg0)) (m ((c : Thread nD τ).loc main_arg2)) :=
    (W4_arr m ρ c 2).trans ((product0 (V3 m ρ) c).trans
      ((congrArg₂ (Cert.Gcn.matProd (M := 50000) (K := 128) (N := 128)) A3.a0 A3.a2).trans (Cert.Gcn.linear_eq _ _).symm))
  have H1 : W6 m ρ c (Proc.devRef .tc main_v52) = Cert.Gcn.hidden1 (F := Ideal) (m ((c : Thread nD τ).loc main_arg0)) (m ((c : Thread nD τ).loc main_arg1)) (m ((c : Thread nD τ).loc main_arg2)) (m ((c : Thread nD τ).loc main_arg3)) :=
    (conv_between01 (W4 m ρ c)).trans (by
      rw [P0, E4.src, E4.dst, E4.wgt, A4.a3]
      exact (Cert.Gcn.conv_eq_convWith _ _ _).symm)
  have A6 : ArgsKept m c (W6 m ρ c) := argsKept_between01 m c A4
  have E6 : EdgesKept m c (W6 m ρ c) := edgesKept_between01 m c E4
  have P1 : W7 m ρ c (Proc.devRef .tc main_v53) = Cert.Gcn.linear (F := Ideal) (Cert.Gcn.hidden1 (F := Ideal) (m ((c : Thread nD τ).loc main_arg0)) (m ((c : Thread nD τ).loc main_arg1)) (m ((c : Thread nD τ).loc main_arg2)) (m ((c : Thread nD τ).loc main_arg3))) (m ((c : Thread nD τ).loc main_arg4)) :=
    (W7_arr m ρ c 2).trans ((product1 (V6 m ρ) c).trans
      ((congrArg₂ (Cert.Gcn.matProd (M := 50000) (K := 128) (N := 128)) H1 A6.a4).trans (Cert.Gcn.linear_eq _ _).symm))
  have A7 : ArgsKept m c (W7 m ρ c) := argsKept_launch1 m ρ c A6
  have E7 : EdgesKept m c (W7 m ρ c) := edgesKept_launch1 m ρ c E6
  have H2 : W9 m ρ c (Proc.devRef .tc main_v70) = Cert.Gcn.hidden2 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
    (conv_between12 (W7 m ρ c)).trans (by
      rw [P1, E7.src, E7.dst, E7.wgt, A7.a5]
      exact (Cert.Gcn.conv_eq_convWith _ _ _).symm)
  have A9 : ArgsKept m c (W9 m ρ c) := argsKept_between12 m c A7
  refine (W10_arr m ρ c 3).trans ((product2 (V9 m ρ) c).trans ?_)
  refine (Cert.Gcn.biasedProd_congr H2 A9.a6 A9.a7).trans ?_
  exact (Cert.Gcn.head_eq _ _ _).symm

end Cert.KernelIdeal.Hand

end
-- ==== Proof.lean ====
/-
  A two-layer graph convolution network with a classifier head: the kernel against its reference, on the extended reals.

  Both programs build the same message structure from the edge list (one self-loop per node is added; a message's
  weight is the product of the inverse square roots of its end points' degrees) and both apply, twice, "multiply the
  node features by a weight matrix, send each message its source's row times its weight, add at the destination, add
  the bias, clamp at zero", then a dense head "multiply by a 128 × 16 matrix and add a bias to every row". They differ
  in ONE respect: the reference takes each of the three matrix products as one host `dot_general`, while the kernel
  computes it in a launch that walks ten blocks of 5,000 rows, narrowing both factors to bf16 and multiplying into a zero
  accumulator (the last launch also adds the head's bias). On the extended reals the narrowing is the identity and a
  product into the zero accumulator is the plain sum over the contracted coordinate — the very sum the host's
  `dot_general` is — and the ten row blocks tile the output. So each launch leaves exactly the array the reference's
  `dot_general` leaves, and everything around the products is the same text in both programs: the two results are one
  function of the arguments (`Cert.Gcn.logits`). No algebraic law beyond re-indexing a finite sum is used, so the
  inputs' finiteness is never needed.

  The three frames: the two kernel programs' from their generated frame certificates, the reference's from its run
  with the result dropped. The kernel's idealization rewrote no operation, so `preserves` has nothing to state.
-/
import proofs.«150165_j40544491274720_1_alg».proof.Defs
import proofs.«150165_j40544491274720_1_alg».proof.Proof.Gen.Kernel
import proofs.«150165_j40544491274720_1_alg».proof.Proof.Gen.Kernel.Skeleton
import proofs.«150165_j40544491274720_1_alg».proof.Proof.Gen.Kernel.Launch
import proofs.«150165_j40544491274720_1_alg».proof.Proof.Gen.Kernel.Points
import proofs.«150165_j40544491274720_1_alg».proof.Proof.Gen.Kernel.Frame
import proofs.«150165_j40544491274720_1_alg».proof.Proof.Gen.KernelIdeal
import proofs.«150165_j40544491274720_1_alg».proof.Proof.Gen.KernelIdeal.Skeleton
import proofs.«150165_j40544491274720_1_alg».proof.Proof.Gen.KernelIdeal.Launch
import proofs.«150165_j40544491274720_1_alg».proof.Proof.Gen.KernelIdeal.Points
import proofs.«150165_j40544491274720_1_alg».proof.Proof.Gen.KernelIdeal.Frame
import proofs.«150165_j40544491274720_1_alg».proof.Proof.Gen.ReferenceIdeal
import proofs.«150165_j40544491274720_1_alg».proof.Proof.Gen.Pre_finite_inputs
import proofs.«150165_j40544491274720_1_alg».proof.Proof.RefRun
import proofs.«150165_j40544491274720_1_alg».proof.Proof.KernelRun
import proofs.«150165_j40544491274720_1_alg».proof.Proof.Boundary
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Hand.run (F := Ideal) m ρ)

/-- The idealization rewrote no operation. -/
theorem preserves : Cert.preserves_Kernel_KernelIdeal := trivial

/-- Both programs end with the network of the specification applied to the arguments: the kernel's result buffer by
    the walk through its segments, the reference's by its run; the arguments agree, so the two results are equal. -/
theorem algebraic : Cert.algebraic_KernelIdeal_ReferenceIdeal := by
  intro m ρ m' ρ' _ hagree
  refine ⟨fun c => Cert.Gcn.logits (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact (θ_run Cert.KernelIdeal.defs _ _).mono
      (fun _ h c => ⟨(h c).1.trans (Cert.KernelIdeal.Hand.last_result m ρ c), (h c).2⟩)
      (Cert.KernelIdeal.Hand.run_last (F := Ideal) m ρ)
  · refine (θ_run Cert.ReferenceIdeal.defs _ _).mono (fun _ h c => ⟨(h c).1.trans ?_, (h c).2⟩)
      (Cert.ReferenceIdeal.Hand.run (F := Ideal) m' ρ')
    obtain ⟨e0, e1, e2, e3, e4, e5, e6, e7⟩ := hagree c
    rw [e0, e1, e2, e3, e4, e5, e6, e7]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
